-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50000 : Shape := ⟨2, ![2048, 50000]⟩
abbrev S2048 : Shape := ⟨1, ![2048]⟩
abbrev S7 : Shape := ⟨1, ![7]⟩
abbrev S_ : Shape := ⟨0, ![]⟩

class Facts : Prop where
  bcast_S_S2048x50000 : S_.BroadcastsInDim S2048x50000 (![] : Fin 0 → Fin S2048x50000.rank)
  reducesTo_S2048x50000_S_d0_1 : S2048x50000.ReducesTo [0, 1] S_
  h_S_ : 0 < S_.numel
  bcast_S_S7 : S_.BroadcastsInDim S7 (![] : Fin 0 → Fin S7.rank)
  reducesTo_S7_S_d0 : S7.ReducesTo [0] S_

variable [Facts]

def fn {F : FTy → Type} [FloatOps F] (main_arg0 : FVec F S2048x50000 .f32) (main_arg1 : IVec S2048 32) (main_arg2 : FVec F S7 .f32) : IVec S_ 1 :=
  let main_v0 : FVec F S2048x50000 .f32 := Host.absf main_arg0
  let main_cst : FVec F S_ .f32 := constant S_ .f32 0x7F800000#32
  let main_v1 : FVec F S2048x50000 .f32 := broadcastInDim S2048x50000 ![] bcast_S_S2048x50000 main_cst
  let main_v2 : IVec S2048x50000 1 := cmpf .olt main_v0 main_v1
  let main_c : IVec S_ 1 := constantI S_ 1 1#1
  let main_v3 : IVec S_ 1 := (fun x v => Host.reduce IntOp.andi x v reducesTo_S2048x50000_S_d0_1 h_S_) main_v2 main_c
  let main_v4 : FVec F S7 .f32 := Host.absf main_arg2
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  main_v8
-- ==== Kernel.lean ====
abbrev S2048x50000 : Shape := ⟨2, ![2048, 50000]⟩
abbrev S2048 : Shape := ⟨1, ![2048]⟩
abbrev S7 : Shape := ⟨1, ![7]⟩
abbrev S_ : Shape := ⟨0, ![]⟩
abbrev S2048x1 : Shape := ⟨2, ![2048, 1]⟩
abbrev S2048x2 : Shape := ⟨2, ![2048, 2]⟩
abbrev S0 : Shape := ⟨1, ![0]⟩
abbrev S1 : Shape := ⟨1, ![1]⟩
abbrev S64x50000 : Shape := ⟨2, ![64, 50000]⟩
abbrev S64x1 : Shape := ⟨2, ![64, 1]⟩
abbrev S64x3840 : Shape := ⟨2, ![64, 3840]⟩
abbrev S64 : Shape := ⟨1, ![64]⟩
abbrev S64x80 : Shape := ⟨2, ![64, 80]⟩

abbrev nBuf : Space → Nat
  | .hbm => 117
  | .vmem => 4
  | .smem => 0
  | _ => 0

abbrev bufTy : (tb : Table) → Fin (tcTables nBuf tb) → BufTy
  | .hbm, ⟨0, _⟩ => ⟨S2048x50000, .f32⟩
  | .hbm, ⟨1, _⟩ => ⟨S2048, .i32⟩
  | .hbm, ⟨2, _⟩ => ⟨S7, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x1, .i32⟩
  | .hbm, ⟨20, _⟩ => ⟨S2048x2, .i32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S0, .f32⟩
  | .hbm, ⟨41, _⟩ => ⟨S7, .f32⟩
  | .hbm, ⟨42, _⟩ => ⟨S1, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S1, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S1, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S1, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S1, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048, .f32⟩
  | .hbm, ⟨67, _⟩ => ⟨S1, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048, .f32⟩
  | .hbm, ⟨72, _⟩ => ⟨S1, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S_, .f32⟩
  | .hbm, ⟨78, _⟩ => ⟨S2048, .f32⟩
  | .hbm, ⟨79, _⟩ => ⟨S2048, .f32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S2048x1, .i32⟩
  | .hbm, ⟨95, _⟩ => ⟨S2048x1, .i32⟩
  | .hbm, ⟨96, _⟩ => ⟨S2048x2, .i32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048, .f32⟩
  | .hbm, ⟨102, _⟩ => ⟨S2048x1, .f32⟩
  | .hbm, ⟨103, _⟩ => ⟨S2048, .f32⟩
  | .hbm, ⟨104, _⟩ => ⟨S2048, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048, .f32⟩
  | .hbm, ⟨111, _⟩ => ⟨S2048, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .local _ .vmem, ⟨0, _⟩ => ⟨S64x50000, .f32⟩
  | .local _ .vmem, ⟨1, _⟩ => ⟨S64x50000, .f32⟩
  | .local _ .vmem, ⟨2, _⟩ => ⟨S64x1, .f32⟩
  | .local _ .vmem, ⟨3, _⟩ => ⟨S64x1, .f32⟩
  | _, _ => ⟨S2048x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_call2_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_call0_v0 : Ref sig .tc := ⟨.hbm, 44, rfl⟩
abbrev main_call2_call0_v1 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_call1_v0 : Ref sig .tc := ⟨.hbm, 49, rfl⟩
abbrev main_call2_call1_v1 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_call2_v0 : Ref sig .tc := ⟨.hbm, 54, rfl⟩
abbrev main_call2_call2_v1 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_call3_v0 : Ref sig .tc := ⟨.hbm, 59, rfl⟩
abbrev main_call2_call3_v1 : Ref sig .tc := ⟨.hbm, 60, rfl⟩
abbrev main_call2_v14 : Ref sig .tc := ⟨.hbm, 61, rfl⟩
abbrev main_call2_v15 : Ref sig .tc := ⟨.hbm, 62, rfl⟩
abbrev main_call2_v16 : Ref sig .tc := ⟨.hbm, 63, rfl⟩
abbrev main_call2_call4_v0 : Ref sig .tc := ⟨.hbm, 64, rfl⟩
abbrev main_call2_call4_v1 : Ref sig .tc := ⟨.hbm, 65, rfl⟩
abbrev main_call2_v17 : Ref sig .tc := ⟨.hbm, 66, rfl⟩
abbrev main_call2_v18 : Ref sig .tc := ⟨.hbm, 67, rfl⟩
abbrev main_call2_v19 : Ref sig .tc := ⟨.hbm, 68, rfl⟩
abbrev main_call2_call5_v0 : Ref sig .tc := ⟨.hbm, 69, rfl⟩
abbrev main_call2_call5_v1 : Ref sig .tc := ⟨.hbm, 70, rfl⟩
abbrev main_call2_v20 : Ref sig .tc := ⟨.hbm, 71, rfl⟩
abbrev main_call2_v21 : Ref sig .tc := ⟨.hbm, 72, rfl⟩
abbrev main_call2_v22 : Ref sig .tc := ⟨.hbm, 73, rfl⟩
abbrev main_call2_call6_v0 : Ref sig .tc := ⟨.hbm, 74, rfl⟩
abbrev main_call2_call6_v1 : Ref sig .tc := ⟨.hbm, 75, rfl⟩
abbrev main_v17 : Ref sig .tc := ⟨.hbm, 76, rfl⟩
abbrev main_cst_6 : Ref sig .tc := ⟨.hbm, 77, rfl⟩
abbrev main_v18 : Ref sig .tc := ⟨.hbm, 78, rfl⟩
abbrev main_v19 : Ref sig .tc := ⟨.hbm, 79, rfl⟩
abbrev main_c_7 : Ref sig .tc := ⟨.hbm, 80, rfl⟩
abbrev main_v20 : Ref sig .tc := ⟨.hbm, 81, rfl⟩
abbrev main_v21 : Ref sig .tc := ⟨.hbm, 82, rfl⟩
abbrev main_c_8 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_c_9 : Ref sig .tc := ⟨.hbm, 87, rfl⟩
abbrev main_v25 : Ref sig .tc := ⟨.hbm, 88, rfl⟩
abbrev main_v26 : Ref sig .tc := ⟨.hbm, 89, rfl⟩
abbrev main_c_10 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_11 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_12 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_13 : Ref sig .tc := ⟨.hbm, 112, rfl⟩
abbrev main_v46 : Ref sig .tc := ⟨.hbm, 113, rfl⟩
abbrev main_cst_14 : Ref sig .tc := ⟨.hbm, 114, rfl⟩
abbrev main_v47 : Ref sig .tc := ⟨.hbm, 115, rfl⟩
abbrev main_v48 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c3840_i32 : BitVec 32 := 3840#32
  let v2 : BitVec 32 := Scalar.muli c0_i32 c3840_i32
  v2
def k0_off1 (c0_i32 : BitVec 32) : Fin 2 → Nat :=
  let c0_1 : Index := 0#32
  let c3840_i32 : BitVec 32 := 3840#32
  let v2 : BitVec 32 := Scalar.muli c0_i32 c3840_i32
  let v3 : BitVec 32 := v2
  let v4 : Index := Scalar.indexCast v3
  ![0, v4.toNat]
def k0_mult2 : BitVec 32 :=
  let c1_i32 : BitVec 32 := 1#32
  let c3840_i32_8 : BitVec 32 := 3840#32
  let v15 : BitVec 32 := Scalar.muli c1_i32 c3840_i32_8
  v15
def k0_mult3 : BitVec 32 :=
  let c2_i32 : BitVec 32 := 2#32
  let c3840_i32_16 : BitVec 32 := 3840#32
  let v28 : BitVec 32 := Scalar.muli c2_i32 c3840_i32_16
  v28
def k0_mult4 : BitVec 32 :=
  let c3_i32 : BitVec 32 := 3#32
  let c3840_i32_24 : BitVec 32 := 3840#32
  let v41 : BitVec 32 := Scalar.muli c3_i32 c3840_i32_24
  v41
def k0_mult5 : BitVec 32 :=
  let c4_i32 : BitVec 32 := 4#32
  let c3840_i32_32 : BitVec 32 := 3840#32
  let v54 : BitVec 32 := Scalar.muli c4_i32 c3840_i32_32
  v54
def k0_mult6 : BitVec 32 :=
  let c5_i32 : BitVec 32 := 5#32
  let c3840_i32_40 : BitVec 32 := 3840#32
  let v67 : BitVec 32 := Scalar.muli c5_i32 c3840_i32_40
  v67
def k0_mult7 : BitVec 32 :=
  let c6_i32 : BitVec 32 := 6#32
  let c3840_i32_48 : BitVec 32 := 3840#32
  let v80 : BitVec 32 := Scalar.muli c6_i32 c3840_i32_48
  v80
def k0_mult8 : BitVec 32 :=
  let c7_i32 : BitVec 32 := 7#32
  let c3840_i32_56 : BitVec 32 := 3840#32
  let v93 : BitVec 32 := Scalar.muli c7_i32 c3840_i32_56
  v93
def k0_mult9 : BitVec 32 :=
  let c8_i32 : BitVec 32 := 8#32
  let c3840_i32_64 : BitVec 32 := 3840#32
  let v106 : BitVec 32 := Scalar.muli c8_i32 c3840_i32_64
  v106
def k0_mult10 : BitVec 32 :=
  let c9_i32 : BitVec 32 := 9#32
  let c3840_i32_72 : BitVec 32 := 3840#32
  let v119 : BitVec 32 := Scalar.muli c9_i32 c3840_i32_72
  v119
def k0_mult11 : BitVec 32 :=
  let c10_i32 : BitVec 32 := 10#32
  let c3840_i32_80 : BitVec 32 := 3840#32
  let v132 : BitVec 32 := Scalar.muli c10_i32 c3840_i32_80
  v132
def k0_mult12 : BitVec 32 :=
  let c11_i32 : BitVec 32 := 11#32
  let c3840_i32_88 : BitVec 32 := 3840#32
  let v145 : BitVec 32 := Scalar.muli c11_i32 c3840_i32_88
  v145
def k0_mult13 : BitVec 32 :=
  let c12_i32 : BitVec 32 := 12#32
  let c3840_i32_96 : BitVec 32 := 3840#32
  let v158 : BitVec 32 := Scalar.muli c12_i32 c3840_i32_96
  v158
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S7_S0_0 : S7.Slices ![0] S0
  slices_S7_S7_0 : S7.Slices ![0] S7
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  inb_S64x1_S64x1_0_0 : ∀ a, (![0, 0] : Fin 2 → Nat) a + S64x1.size a ≤ S64x1.size a
  h_S64x1 : 0 < S64x1.numel
  h_S64x3840 : 0 < S64x3840.numel
  shapeCasts_S64x1_S64x1 : S64x1.ShapeCasts S64x1
  reduces_S64x3840_S64 : S64x3840.Reduces [1] S64
  shapeCasts_S64_S64x1 : S64.ShapeCasts S64x1
  inb_S64x50000_S64x80_0_49920 : ∀ a, (![0, 49920] : Fin 2 → Nat) a + S64x80.size a ≤ S64x50000.size a
  h_S64x80 : 0 < S64x80.numel
  reduces_S64x80_S64 : S64x80.Reduces [1] S64
  shapeCasts_S2048x1_S2048 : S2048x1.ShapeCasts S2048
  reducesTo_S2048_S_d0 : S2048.ReducesTo [0] S_
  h_S_ : 0 < S_.numel
  gather_S2048x50000_S2048x2_S2048_n_01_n_n_01_1_11_wf : GatherDims.WF S2048x50000 S2048x2 S2048 [] [0, 1] [] [0, 1] [] 1 ![1, 1]
  hrank0 : 0 < grid0.rank
  k0_mult1_dvd : 3840 ∣ k0_mult1.toNat
  k0_off1_inb : ∀ (r : Fin 13), ∀ a, (k0_off1 (BitVec.ofNat 32 r.val)) a + S64x3840.size a ≤ S64x50000.size a
  k0_mult2_dvd : 3840 ∣ k0_mult2.toNat
  k0_mult3_dvd : 3840 ∣ k0_mult3.toNat
  k0_mult4_dvd : 3840 ∣ k0_mult4.toNat
  k0_mult5_dvd : 3840 ∣ k0_mult5.toNat
  k0_mult6_dvd : 3840 ∣ k0_mult6.toNat
  k0_mult7_dvd : 3840 ∣ k0_mult7.toNat
  k0_mult8_dvd : 3840 ∣ k0_mult8.toNat
  k0_mult9_dvd : 3840 ∣ k0_mult9.toNat
  k0_mult10_dvd : 3840 ∣ k0_mult10.toNat
  k0_mult11_dvd : 3840 ∣ k0_mult11.toNat
  k0_mult12_dvd : 3840 ∣ k0_mult12.toNat
  k0_mult13_dvd : 3840 ∣ k0_mult13.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50000.size a ≤ S2048x50000.size a
  hwx0_0 : ∀ i : grid0.Coords, EltTy.bits .f32 = 32 ∨ (Rect.block (s := S2048x50000) S64x50000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .f32 = 32 ∨ (Rect.block (s := S2048x1) S64x1.size (cc0_transform_1 i) (hinb0_1 i)).WholeWords (EltTy.packing .f32)

variable [Facts₀]

def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf

abbrev win0_0 : Pipeline.Window sig grid0 :=
  Pipeline.Window.ofSpec (Memref.whole main_arg0) S64x50000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x50000 : Shape := ⟨2, ![2048, 50000]⟩
abbrev S2048 : Shape := ⟨1, ![2048]⟩
abbrev S7 : Shape := ⟨1, ![7]⟩
abbrev S_ : Shape := ⟨0, ![]⟩
abbrev S2048x1 : Shape := ⟨2, ![2048, 1]⟩
abbrev S2048x2 : Shape := ⟨2, ![2048, 2]⟩
abbrev S0 : Shape := ⟨1, ![0]⟩
abbrev S1 : Shape := ⟨1, ![1]⟩

abbrev nBuf : Space → Nat
  | .hbm => 114
  | .vmem => 0
  | .smem => 0
  | _ => 0

abbrev bufTy : (tb : Table) → Fin (tcTables nBuf tb) → BufTy
  | .hbm, ⟨0, _⟩ => ⟨S2048x50000, .f32⟩
  | .hbm, ⟨1, _⟩ => ⟨S2048, .i32⟩
  | .hbm, ⟨2, _⟩ => ⟨S7, .f32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S0, .f32⟩
  | .hbm, ⟨40, _⟩ => ⟨S7, .f32⟩
  | .hbm, ⟨41, _⟩ => ⟨S1, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S1, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S1, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S1, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S1, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S1, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048, .f32⟩
  | .hbm, ⟨71, _⟩ => ⟨S1, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S2048x50000, .f32⟩
  | .hbm, ⟨81, _⟩ => ⟨S2048x50000, .f32⟩
  | .hbm, ⟨82, _⟩ => ⟨S2048x50000, .f32⟩
  | .hbm, ⟨83, _⟩ => ⟨S2048, .i32⟩
  | .hbm, ⟨84, _⟩ => ⟨S_, .f32⟩
  | .hbm, ⟨85, _⟩ => ⟨S2048, .f32⟩
  | .hbm, ⟨86, _⟩ => ⟨S_, .i32⟩
  | .hbm, ⟨87, _⟩ => ⟨S2048, .i32⟩
  | .hbm, ⟨88, _⟩ => ⟨S2048, .i1⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S2048, .i32⟩
  | .hbm, ⟨93, _⟩ => ⟨S_, .i32⟩
  | .hbm, ⟨94, _⟩ => ⟨S2048, .i32⟩
  | .hbm, ⟨95, _⟩ => ⟨S2048, .i1⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .i32⟩
  | .hbm, ⟨100, _⟩ => ⟨S2048x1, .i32⟩
  | .hbm, ⟨101, _⟩ => ⟨S2048x1, .i32⟩
  | .hbm, ⟨102, _⟩ => ⟨S2048x2, .i32⟩
  | .hbm, ⟨103, _⟩ => ⟨S2048, .f32⟩
  | .hbm, ⟨104, _⟩ => ⟨S2048, .f32⟩
  | .hbm, ⟨105, _⟩ => ⟨S2048, .f32⟩
  | .hbm, ⟨106, _⟩ => ⟨S2048, .f32⟩
  | .hbm, ⟨107, _⟩ => ⟨S2048, .f32⟩
  | .hbm, ⟨108, _⟩ => ⟨S2048, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S2048x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_4 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_call1_v0 : Ref sig .tc := ⟨.hbm, 48, rfl⟩
abbrev main_call2_call1_v1 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_call2_v0 : Ref sig .tc := ⟨.hbm, 53, rfl⟩
abbrev main_call2_call2_v1 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_call3_v0 : Ref sig .tc := ⟨.hbm, 58, rfl⟩
abbrev main_call2_call3_v1 : Ref sig .tc := ⟨.hbm, 59, rfl⟩
abbrev main_call2_v14 : Ref sig .tc := ⟨.hbm, 60, rfl⟩
abbrev main_call2_v15 : Ref sig .tc := ⟨.hbm, 61, rfl⟩
abbrev main_call2_v16 : Ref sig .tc := ⟨.hbm, 62, rfl⟩
abbrev main_call2_call4_v0 : Ref sig .tc := ⟨.hbm, 63, rfl⟩
abbrev main_call2_call4_v1 : Ref sig .tc := ⟨.hbm, 64, rfl⟩
abbrev main_call2_v17 : Ref sig .tc := ⟨.hbm, 65, rfl⟩
abbrev main_call2_v18 : Ref sig .tc := ⟨.hbm, 66, rfl⟩
abbrev main_call2_v19 : Ref sig .tc := ⟨.hbm, 67, rfl⟩
abbrev main_call2_call5_v0 : Ref sig .tc := ⟨.hbm, 68, rfl⟩
abbrev main_call2_call5_v1 : Ref sig .tc := ⟨.hbm, 69, rfl⟩
abbrev main_call2_v20 : Ref sig .tc := ⟨.hbm, 70, rfl⟩
abbrev main_call2_v21 : Ref sig .tc := ⟨.hbm, 71, rfl⟩
abbrev main_call2_v22 : Ref sig .tc := ⟨.hbm, 72, rfl⟩
abbrev main_call2_call6_v0 : Ref sig .tc := ⟨.hbm, 73, rfl⟩
abbrev main_call2_call6_v1 : Ref sig .tc := ⟨.hbm, 74, rfl⟩
abbrev main_v16 : Ref sig .tc := ⟨.hbm, 75, rfl⟩
abbrev main_cst_6 : Ref sig .tc := ⟨.hbm, 76, rfl⟩
abbrev main_v17 : Ref sig .tc := ⟨.hbm, 77, rfl⟩
abbrev main_v18 : Ref sig .tc := ⟨.hbm, 78, rfl⟩
abbrev main_cst_7 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_8 : Ref sig .tc := ⟨.hbm, 84, rfl⟩
abbrev main_v23 : Ref sig .tc := ⟨.hbm, 85, rfl⟩
abbrev main_c_9 : Ref sig .tc := ⟨.hbm, 86, rfl⟩
abbrev main_v24 : Ref sig .tc := ⟨.hbm, 87, rfl⟩
abbrev main_v25 : Ref sig .tc := ⟨.hbm, 88, rfl⟩
abbrev main_c_10 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_c_11 : Ref sig .tc := ⟨.hbm, 93, rfl⟩
abbrev main_v29 : Ref sig .tc := ⟨.hbm, 94, rfl⟩
abbrev main_v30 : Ref sig .tc := ⟨.hbm, 95, rfl⟩
abbrev main_c_12 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_13 : Ref sig .tc := ⟨.hbm, 109, rfl⟩
abbrev main_v43 : Ref sig .tc := ⟨.hbm, 110, rfl⟩
abbrev main_cst_14 : Ref sig .tc := ⟨.hbm, 111, rfl⟩
abbrev main_v44 : Ref sig .tc := ⟨.hbm, 112, rfl⟩
abbrev main_v45 : Ref sig .tc := ⟨.hbm, 113, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S7_S0_0 : S7.Slices ![0] S0
  slices_S7_S7_0 : S7.Slices ![0] S7
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  bcast_S_S2048x50000 : S_.BroadcastsInDim S2048x50000 (![] : Fin 0 → Fin S2048x50000.rank)
  reducesTo_S2048x50000_S2048_d1 : S2048x50000.ReducesTo [1] S2048
  h_S_ : 0 < S_.numel
  reducesTo_S2048_S_d0 : S2048.ReducesTo [0] S_
  gather_S2048x50000_S2048x2_S2048_n_01_n_n_01_1_11_wf : GatherDims.WF S2048x50000 S2048x2 S2048 [] [0, 1] [] [0, 1] [] 1 ![1, 1]

variable [Facts₀]

def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf

class Facts : Prop extends Facts₀ where

variable [Facts]
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.Arith.lean ====
/-
  Three facts of arithmetic on the extended reals and on finite sums, free of any program.

  * A sum over the first 50000 naturals, taken as thirteen consecutive stretches of 3840 terms accumulated one after
    the other from zero and then a last stretch of 80 terms, is the plain sum: addition in a commutative monoid is
    associative, and 13 · 3840 + 80 = 50000.  No cancellation is used, so this holds on the extended reals as it stands.
  * exp(30 · r) of a real r is a positive real (the constant 30.0 denotes the real 30).
  * For positive reals f(0), …, f(n−1) and any q, the sum less the term f(q) is a non-negative real; so clamping
    that difference at zero from below changes nothing.  This is where finiteness is needed: on the extended reals
    (+inf) − (+inf) is −inf, and the clamp would then matter.
-/
import Idealize.ShloMosaic.PureOps.Ideal.Laws

noncomputable section

open scoped BigOperators

namespace ArcLoss.Arith

open Idealize.ShloMosaic

/-! ## Consecutive stretches of a sum -/

section Stretches

variable {M : Type*} [AddCommMonoid M] (g : ℕ → M)

/-- The sum of the first 3840 · k terms. -/
def upTo (k : ℕ) : M := ∑ j ∈ Finset.range (3840 * k), g j

theorem upTo_zero : upTo g 0 = 0 := by simp [upTo]

/-- One more stretch of 3840 terms. -/
theorem upTo_succ (k : ℕ) : upTo g (k + 1) = upTo g k + ∑ l ∈ Finset.range 3840, g (3840 * k + l) := by
  unfold upTo
  rw [show 3840 * (k + 1) = 3840 * k + 3840 by ring, Finset.sum_range_add]

/-- Thirteen stretches of 3840 accumulated from zero in order, then the last 80 terms: the sum of the first 50000. -/
theorem stretches_eq_sum :
    (((((((((((((((0 : M)
      + ∑ l ∈ Finset.range 3840, g (0 + l)) + ∑ l ∈ Finset.range 3840, g (3840 + l))
      + ∑ l ∈ Finset.range 3840, g (7680 + l)) + ∑ l ∈ Finset.range 3840, g (11520 + l))
      + ∑ l ∈ Finset.range 3840, g (15360 + l)) + ∑ l ∈ Finset.range 3840, g (19200 + l))
      + ∑ l ∈ Finset.range 3840, g (23040 + l)) + ∑ l ∈ Finset.range 3840, g (26880 + l))
      + ∑ l ∈ Finset.range 3840, g (30720 + l)) + ∑ l ∈ Finset.range 3840, g (34560 + l))
      + ∑ l ∈ Finset.range 3840, g (38400 + l)) + ∑ l ∈ Finset.range 3840, g (42240 + l))
      + ∑ l ∈ Finset.range 3840, g (46080 + l)) + ∑ l ∈ Finset.range 80, g (49920 + l))
    = ∑ j ∈ Finset.range 50000, g j := by
  have h13 : upTo g 13 = ∑ j ∈ Finset.range 49920, g j := rfl
  rw [show (50000 : ℕ) = 49920 + 80 from rfl, Finset.sum_range_add, ← h13]
  have e := fun k => upTo_succ g k
  rw [e 12, e 11, e 10, e 9, e 8, e 7, e 6, e 5, e 4, e 3, e 2, e 1, e 0, upTo_zero]

end Stretches

/-! ## exp(30 · r) -/

/-- The constant 30.0 denotes the real 30. -/
theorem ofBits_thirty : Ideal.ofBits .f32 0x41F00000#32 = ((30 : ℝ) : EReal) := by
  simp [Ideal.ofBits, Ideal.ieee, -EReal.coe_mul]; norm_num

/-- exp(30 · r) of a real r is the real exp(30 r). -/
theorem exp_thirty_mul (r : ℝ) :
    Ideal.exp (Ideal.ofBits .f32 0x41F00000#32 * (r : EReal)) = ((Real.exp (30 * r) : ℝ) : EReal) := by
  rw [ofBits_thirty, ← EReal.coe_mul]; rfl

/-! ## A sum of positive reals less one of its terms -/

/-- A finite sum of reals, each read as an extended real, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum of positive reals less one of its terms is not negative, so the clamp at zero is idle; the initial zero
    of the summation is absorbed. -/
theorem max_sum_sub_term {n : ℕ} (f : Fin n → ℝ) (hf : ∀ k, 0 < f k) (q : Fin n) :
    max ((∑ k, (f k : EReal)) - (f q : EReal)) 0 = (0 + ∑ k, (f k : EReal)) - (f q : EReal) := by
  rw [zero_add, coe_sum, ← EReal.coe_sub]
  refine max_eq_left (EReal.coe_nonneg.mpr (sub_nonneg.mpr ?_))
  exact Finset.single_le_sum (f := f) (fun k _ => (hf k).le) (Finset.mem_univ q)

end ArcLoss.Arith

end
-- ==== Proof.RowBlock.lean ====
/-
  What the row-sum kernel's body leaves in its output block, read at exact arithmetic.

  The body zeroes the [64, 1] output block, then thirteen times loads a [64, 3840] stretch of columns of its
  [64, 50000] input block x, takes exp(30 · x) entrywise, sums each row, and adds the column of row sums onto the
  output block (read back from memory each time); a last stretch of 80 columns is treated the same way.  Every store
  overwrites the whole block, so what the block ends with is the last stored value, and each value read back is the
  one stored just before.  At row r this is ((…((0 + Σ over columns 0…3839) + Σ over 3840…7679) …) + Σ over the last
  80 columns) of exp(30 · x(r, ·)), which by associativity alone is the sum over all 50000 columns.
-/
import proofs.«138141_j21844203667631_2_alg».proof.Proof.Gen.KernelIdeal.Frame
import proofs.«138141_j21844203667631_2_alg».proof.Proof.LibLayout
import proofs.«138141_j21844203667631_2_alg».proof.Proof.Arith
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.RowBlock

open Cert.KernelIdeal Cert.KernelIdeal.Gen
open Idealize.ShloMosaic Idealize.ShloMosaic.TcCoe Idealize.ShloMosaic.ValueIdx Idealize.SL.Sem

theorem hz : (![0, 0] : Fin 2 → Nat) = fun _ => 0 := funext fun a => by fin_cases a <;> rfl

/-- The constant 30.0 at exact arithmetic. -/
abbrev c30 : EReal := Ideal.ofBits .f32 0x41F00000#32

/-! ## A stretch of columns of the input block -/

theorem inbCols (off n : ℕ) (h : off + n ≤ 50000) :
    ∀ a, (![0, off] : Fin 2 → ℕ) a + (![64, n] : Fin 2 → ℕ) a ≤ S64x50000.size a := fun a => by
  match a with
  | ⟨0, _⟩ => exact Nat.le_refl 64
  | ⟨1, _⟩ => exact h

/-- Columns off … off + n − 1 of the block, all 64 rows: what a load through that rectangle reads. -/
def cols {F : FTy → Type} (x0 : Vec F S64x50000 .f32) (off n : ℕ) (h : off + n ≤ 50000) :
    (Rect.unit (s := S64x50000) ![0, off] ![64, n] (inbCols off n h)).shape.Idx → Elt F .f32 :=
  View.ld x0 (Rect.unit (s := S64x50000) ![0, off] ![64, n] (inbCols off n h))

theorem cols_apply {F : FTy → Type} (x0 : Vec F S64x50000 .f32) (off n : ℕ) (h : off + n ≤ 50000) (r : Fin 64) (l : Fin n) :
    cols x0 off n h (ix2 r l) = x0 (ix2 r ⟨off + l.val, by omega⟩) := by
  unfold cols View.ld
  refine congrArg x0 (funext fun a => Fin.ext ?_)
  match a with
  | ⟨0, _⟩ => show 0 + 1 * r.val = r.val; omega
  | ⟨1, _⟩ => show off + 1 * l.val = off + l.val; omega

/-! ## One accumulation step at an entry -/

/-- acc + the row sums of exp(30 · ch), at row r, for a stretch of 3840 columns. -/
theorem step3840_apply (hφ : FKind.Formats .f32) (hacc : (0x00000000#32 : BitVec 32) = FKind.add.neutral .f32 hφ)
    (ch : FVec Ideal S64x3840 .f32) (acc : FVec Ideal S64x1 .f32) (r : Fin 64) :
    addf (shapeCast S64x1 acc shapeCasts_S64x1_S64x1)
        (shapeCast S64x1 (multiReduction .add [1] S64 (exp (mulf (broadcast S64x3840 (Scalar.ofBits .f32 0x41F00000#32)) ch))
          0x00000000#32 reduces_S64x3840_S64 hφ hacc) shapeCasts_S64_S64x1) (ix2 r (0 : Fin 1))
      = acc (ix2 r (0 : Fin 1)) + ∑ l : Fin 3840, Ideal.exp (c30 * ch (ix2 r l)) := by
  show shapeCast S64x1 acc shapeCasts_S64x1_S64x1 (ix2 r (0 : Fin 1)) + shapeCast S64x1 _ shapeCasts_S64_S64x1 (ix2 r (0 : Fin 1)) = _
  rw [shapeCast_self, Cert.LibLayout.shapeCast_a_a1_apply]
  refine congrArg (acc (ix2 r (0 : Fin 1)) + ·) ?_
  refine (Ideal.multiReduction_add_single _ 0x00000000#32 reduces_S64x3840_S64 hφ hacc (ix1 r)).trans ?_
  refine Finset.sum_congr rfl fun l _ => ?_
  show Ideal.exp (c30 * ch _) = _
  refine congrArg (fun j => Ideal.exp (c30 * ch j)) (funext fun a => Fin.ext ?_)
  match a with
  | ⟨0, _⟩ => rfl
  | ⟨1, _⟩ => rfl

/-- The same for the last stretch of 80 columns. -/
theorem step80_apply (hφ : FKind.Formats .f32) (hacc : (0x00000000#32 : BitVec 32) = FKind.add.neutral .f32 hφ)
    (ch : FVec Ideal S64x80 .f32) (acc : FVec Ideal S64x1 .f32) (r : Fin 64) :
    addf (shapeCast S64x1 acc shapeCasts_S64x1_S64x1)
        (shapeCast S64x1 (multiReduction .add [1] S64 (exp (mulf (broadcast S64x80 (Scalar.ofBits .f32 0x41F00000#32)) ch))
          0x00000000#32 reduces_S64x80_S64 hφ hacc) shapeCasts_S64_S64x1) (ix2 r (0 : Fin 1))
      = acc (ix2 r (0 : Fin 1)) + ∑ l : Fin 80, Ideal.exp (c30 * ch (ix2 r l)) := by
  show shapeCast S64x1 acc shapeCasts_S64x1_S64x1 (ix2 r (0 : Fin 1)) + shapeCast S64x1 _ shapeCasts_S64_S64x1 (ix2 r (0 : Fin 1)) = _
  rw [shapeCast_self, Cert.LibLayout.shapeCast_a_a1_apply]
  refine congrArg (acc (ix2 r (0 : Fin 1)) + ·) ?_
  refine (Ideal.multiReduction_add_single _ 0x00000000#32 reduces_S64x80_S64 hφ hacc (ix1 r)).trans ?_
  refine Finset.sum_congr rfl fun l _ => ?_
  show Ideal.exp (c30 * ch _) = _
  refine congrArg (fun j => Ideal.exp (c30 * ch j)) (funext fun a => Fin.ext ?_)
  match a with
  | ⟨0, _⟩ => rfl
  | ⟨1, _⟩ => rfl

/-! ## The body's payloads at an entry -/

/-- The zeroing store's value. -/
theorem pay3_apply (r : Fin 64) : k0_pay3 (F := Ideal) (ix2 r (0 : Fin 1)) = 0 :=
  Ideal.ofBits_zero_f32

theorem pay4_apply (ch : FVec Ideal S64x3840 .f32) (acc : FVec Ideal S64x1 .f32) (r : Fin 64) :
    k0_pay4 (F := Ideal) ch acc (ix2 r (0 : Fin 1)) = acc (ix2 r (0 : Fin 1)) + ∑ l : Fin 3840, Ideal.exp (c30 * ch (ix2 r l)) :=
  step3840_apply (.inl rfl) rfl ch acc r

theorem pay5_apply (ch : FVec Ideal S64x3840 .f32) (acc : FVec Ideal S64x1 .f32) (r : Fin 64) :
    k0_pay5 (F := Ideal) ch acc (ix2 r (0 : Fin 1)) = acc (ix2 r (0 : Fin 1)) + ∑ l : Fin 3840, Ideal.exp (c30 * ch (ix2 r l)) :=
  step3840_apply (.inl rfl) rfl ch acc r

theorem pay6_apply (ch : FVec Ideal S64x3840 .f32) (acc : FVec Ideal S64x1 .f32) (r : Fin 64) :
    k0_pay6 (F := Ideal) ch acc (ix2 r (0 : Fin 1)) = acc (ix2 r (0 : Fin 1)) + ∑ l : Fin 3840, Ideal.exp (c30 * ch (ix2 r l)) :=
  step3840_apply (.inl rfl) rfl ch acc r

theorem pay7_apply (ch : FVec Ideal S64x3840 .f32) (acc : FVec Ideal S64x1 .f32) (r : Fin 64) :
    k0_pay7 (F := Ideal) ch acc (ix2 r (0 : Fin 1)) = acc (ix2 r (0 : Fin 1)) + ∑ l : Fin 3840, Ideal.exp (c30 * ch (ix2 r l)) :=
  step3840_apply (.inl rfl) rfl ch acc r

theorem pay8_apply (ch : FVec Ideal S64x3840 .f32) (acc : FVec Ideal S64x1 .f32) (r : Fin 64) :
    k0_pay8 (F := Ideal) ch acc (ix2 r (0 : Fin 1)) = acc (ix2 r (0 : Fin 1)) + ∑ l : Fin 3840, Ideal.exp (c30 * ch (ix2 r l)) :=
  step3840_apply (.inl rfl) rfl ch acc r

theorem pay9_apply (ch : FVec Ideal S64x3840 .f32) (acc : FVec Ideal S64x1 .f32) (r : Fin 64) :
    k0_pay9 (F := Ideal) ch acc (ix2 r (0 : Fin 1)) = acc (ix2 r (0 : Fin 1)) + ∑ l : Fin 3840, Ideal.exp (c30 * ch (ix2 r l)) :=
  step3840_apply (.inl rfl) rfl ch acc r

theorem pay10_apply (ch : FVec Ideal S64x3840 .f32) (acc : FVec Ideal S64x1 .f32) (r : Fin 64) :
    k0_pay10 (F := Ideal) ch acc (ix2 r (0 : Fin 1)) = acc (ix2 r (0 : Fin 1)) + ∑ l : Fin 3840, Ideal.exp (c30 * ch (ix2 r l)) :=
  step3840_apply (.inl rfl) rfl ch acc r

theorem pay13_apply (ch : FVec Ideal S64x3840 .f32) (acc : FVec Ideal S64x1 .f32) (r : Fin 64) :
    k0_pay13 (F := Ideal) ch acc (ix2 r (0 : Fin 1)) = acc (ix2 r (0 : Fin 1)) + ∑ l : Fin 3840, Ideal.exp (c30 * ch (ix2 r l)) :=
  step3840_apply (.inl rfl) rfl ch acc r

theorem pay14_apply (ch : FVec Ideal S64x3840 .f32) (acc : FVec Ideal S64x1 .f32) (r : Fin 64) :
    k0_pay14 (F := Ideal) ch acc (ix2 r (0 : Fin 1)) = acc (ix2 r (0 : Fin 1)) + ∑ l : Fin 3840, Ideal.exp (c30 * ch (ix2 r l)) :=
  step3840_apply (.inl rfl) rfl ch acc r

theorem pay15_apply (ch : FVec Ideal S64x3840 .f32) (acc : FVec Ideal S64x1 .f32) (r : Fin 64) :
    k0_pay15 (F := Ideal) ch acc (ix2 r (0 : Fin 1)) = acc (ix2 r (0 : Fin 1)) + ∑ l : Fin 3840, Ideal.exp (c30 * ch (ix2 r l)) :=
  step3840_apply (.inl rfl) rfl ch acc r

theorem pay16_apply (ch : FVec Ideal S64x3840 .f32) (acc : FVec Ideal S64x1 .f32) (r : Fin 64) :
    k0_pay16 (F := Ideal) ch acc (ix2 r (0 : Fin 1)) = acc (ix2 r (0 : Fin 1)) + ∑ l : Fin 3840, Ideal.exp (c30 * ch (ix2 r l)) :=
  step3840_apply (.inl rfl) rfl ch acc r

/-- The stretch computed in two steps: exp(30 · ch) first, then the row sums and the addition. -/
theorem pay12_apply (ch : FVec Ideal S64x3840 .f32) (acc : FVec Ideal S64x1 .f32) (r : Fin 64) :
    k0_pay12 (F := Ideal) (k0_pay11 ch) acc (ix2 r (0 : Fin 1)) = acc (ix2 r (0 : Fin 1)) + ∑ l : Fin 3840, Ideal.exp (c30 * ch (ix2 r l)) :=
  step3840_apply (.inl rfl) rfl ch acc r

/-- The stretch computed in three steps: the value read back, the row sums of exp(30 · ch), then their sum. -/
theorem pay1_apply (ch : FVec Ideal S64x3840 .f32) (acc : FVec Ideal S64x1 .f32) (r : Fin 64) :
    k0_pay1 (F := Ideal) (k0_pay17 acc) (k0_pay18 ch) (ix2 r (0 : Fin 1)) = acc (ix2 r (0 : Fin 1)) + ∑ l : Fin 3840, Ideal.exp (c30 * ch (ix2 r l)) :=
  step3840_apply (.inl rfl) rfl ch acc r

theorem pay2_apply (ch : FVec Ideal S64x80 .f32) (acc : FVec Ideal S64x1 .f32) (r : Fin 64) :
    k0_pay2 (F := Ideal) ch acc (ix2 r (0 : Fin 1)) = acc (ix2 r (0 : Fin 1)) + ∑ l : Fin 80, Ideal.exp (c30 * ch (ix2 r l)) :=
  step80_apply (.inl rfl) rfl ch acc r

/-! ## The block the body leaves -/

/-- The last stored value, as the payloads nested in store order over the loaded stretches of the input block. -/
def nest (x0 : Vec Ideal S64x50000 .f32) : FVec Ideal S64x1 .f32 :=
  k0_pay2 (cols x0 49920 80 (by decide))
    (k0_pay1 (k0_pay17
      (k0_pay16 (cols x0 42240 3840 (by decide))
      (k0_pay15 (cols x0 38400 3840 (by decide))
      (k0_pay14 (cols x0 34560 3840 (by decide))
      (k0_pay13 (cols x0 30720 3840 (by decide))
      (k0_pay12 (k0_pay11 (cols x0 26880 3840 (by decide)))
      (k0_pay10 (cols x0 23040 3840 (by decide))
      (k0_pay9 (cols x0 19200 3840 (by decide))
      (k0_pay8 (cols x0 15360 3840 (by decide))
      (k0_pay7 (cols x0 11520 3840 (by decide))
      (k0_pay6 (cols x0 7680 3840 (by decide))
      (k0_pay5 (cols x0 3840 3840 (by decide))
      (k0_pay4 (cols x0 0 3840 (by decide)) (k0_pay3 (F := Ideal)))))))))))))))
      (k0_pay18 (cols x0 46080 3840 (by decide))))

/-- Every store covers the block and every load of the block reads the store before it: the block ends at `nest`. -/
theorem out_eq_nest (c : Dev nD) (i : grid0.Coords) (arg1 : Memref sig .tc .vmem S64x50000 .f32) (harg1 : arg1.IsWhole)
    (arg2 : Memref sig .tc .vmem S64x1 .f32) (harg2 : arg2.IsWhole) (x0 : Vec Ideal S64x50000 .f32) :
    out0_A_1 (F := Ideal) c i arg1 harg1 arg2 harg2 x0 = nest x0 := by
  unfold out0_A_1
  rw [View.read_writes_eq_canon _ _ _ (cover0_A_1 c i arg1 harg1 arg2 harg2 x0)]
  unfold kernelRun0_A
  dsimp only
  rw [View.canon_cons_unit_zero (S := S64x1) hz]
  unfold kernelRun0_A.sl.v175 kernelRun0_A.sl.H1_14
  rw [View.readCov_cons_toLoadRect]
  unfold kernelRun0_A.sl.r_3 kernelRun0_A.sl.r_4 kernelRun0_A.sl.v165 kernelRun0_A.sl.H1_13
  rw [View.readCov_cons_toLoadRect]
  unfold kernelRun0_A.sl.v152 kernelRun0_A.sl.H1_12
  rw [View.readCov_cons_toLoadRect]
  unfold kernelRun0_A.sl.v139 kernelRun0_A.sl.H1_11
  rw [View.readCov_cons_toLoadRect]
  unfold kernelRun0_A.sl.v126 kernelRun0_A.sl.H1_10
  rw [View.readCov_cons_toLoadRect]
  unfold kernelRun0_A.sl.v113 kernelRun0_A.sl.H1_9
  rw [View.readCov_cons_toLoadRect]
  unfold kernelRun0_A.sl.r_2 kernelRun0_A.sl.v100 kernelRun0_A.sl.H1_8
  rw [View.readCov_cons_toLoadRect]
  unfold kernelRun0_A.sl.v87 kernelRun0_A.sl.H1_7
  rw [View.readCov_cons_toLoadRect]
  unfold kernelRun0_A.sl.v74 kernelRun0_A.sl.H1_6
  rw [View.readCov_cons_toLoadRect]
  unfold kernelRun0_A.sl.r_1 kernelRun0_A.sl.v61 kernelRun0_A.sl.H1_5
  rw [View.readCov_cons_toLoadRect]
  unfold kernelRun0_A.sl.v48 kernelRun0_A.sl.H1_4
  rw [View.readCov_cons_toLoadRect]
  unfold kernelRun0_A.sl.r kernelRun0_A.sl.v35 kernelRun0_A.sl.H1_3
  rw [View.readCov_cons_toLoadRect]
  unfold kernelRun0_A.sl.v22 kernelRun0_A.sl.H1_2
  rw [View.readCov_cons_toLoadRect]
  unfold kernelRun0_A.sl.v9 kernelRun0_A.sl.H1_1
  rw [View.readCov_cons_toLoadRect]
  simp only [View.readAt_eq_ld, harg1.read_unread]
  rfl

/-! ## The block at an entry: the row's full sum -/

/-- exp(30 · x0(r, j)) as a function of a natural column number (zero past the last column). -/
def term (x0 : Vec Ideal S64x50000 .f32) (r : Fin 64) (j : ℕ) : EReal :=
  if h : j < 50000 then Ideal.exp (c30 * x0 (ix2 r ⟨j, h⟩)) else 0

/-- The row sums of exp(30 · ·) over one loaded stretch, as a sum over a range of column numbers. -/
theorem stretch_sum (x0 : Vec Ideal S64x50000 .f32) (r : Fin 64) (off n : ℕ) (h : off + n ≤ 50000) :
    ∑ l : Fin n, Ideal.exp (c30 * cols x0 off n h (ix2 r l)) = ∑ l ∈ Finset.range n, term x0 r (off + l) := by
  rw [← Fin.sum_univ_eq_sum_range (fun l => term x0 r (off + l)) n]
  refine Finset.sum_congr rfl fun l _ => ?_
  rw [cols_apply]
  unfold term
  rw [dif_pos (by have := l.isLt; omega)]

/-- The whole row's sum likewise. -/
theorem row_sum (x0 : Vec Ideal S64x50000 .f32) (r : Fin 64) :
    ∑ j : Fin 50000, Ideal.exp (c30 * x0 (ix2 r j)) = ∑ j ∈ Finset.range 50000, term x0 r j := by
  rw [← Fin.sum_univ_eq_sum_range (fun j => term x0 r j) 50000]
  refine Finset.sum_congr rfl fun j _ => ?_
  unfold term
  rw [dif_pos j.isLt]

/-- THE BLOCK AT ROW r: the sum over all 50000 columns of exp(30 · x0(r, ·)). -/
theorem out_block_apply (c : Dev nD) (i : grid0.Coords) (arg1 : Memref sig .tc .vmem S64x50000 .f32) (harg1 : arg1.IsWhole)
    (arg2 : Memref sig .tc .vmem S64x1 .f32) (harg2 : arg2.IsWhole) (x0 : Vec Ideal S64x50000 .f32) (r : Fin 64) :
    out0_A_1 (F := Ideal) c i arg1 harg1 arg2 harg2 x0 (ix2 r (0 : Fin 1)) = ∑ j : Fin 50000, Ideal.exp (c30 * x0 (ix2 r j)) := by
  rw [out_eq_nest]
  unfold nest
  rw [pay2_apply, pay1_apply, pay16_apply, pay15_apply, pay14_apply, pay13_apply, pay12_apply, pay10_apply, pay9_apply,
    pay8_apply, pay7_apply, pay6_apply, pay5_apply, pay4_apply, pay3_apply]
  simp only [stretch_sum]
  rw [row_sum]
  exact ArcLoss.Arith.stretches_eq_sum (term x0 r)

end Cert.KernelIdeal.RowBlock

end
-- ==== Proof.RowArray.lean ====
/-
  From the kernel's blocks to its result array.

  Grid point t (of 32) stages rows 64 t … 64 t + 63 of the logits (all 50000 columns) and writes back rows
  64 t … 64 t + 63 of the [2048, 1] result.  What it writes back at row r of its block is the full row sum of
  exp(30 · x) over row 64 t + r, so each written block is the block of ONE whole-array function — the column of all
  2048 row sums — and the 32 blocks cover the array: the point that covers row i is i / 64.
-/
import proofs.«138141_j21844203667631_2_alg».proof.Proof.RowBlock

set_option maxRecDepth 16384

noncomputable section

open scoped BigOperators

namespace Cert.KernelIdeal.RowArray

open Cert.KernelIdeal Cert.KernelIdeal.Gen Cert.KernelIdeal.RowBlock
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The column of row sums of exp(30 · x): entry (i, ·) is the sum over the 50000 columns of row i. -/
def rowSums (x : S2048x50000.Idx → EReal) : S2048x1.Idx → EReal :=
  fun i => ∑ j : Fin 50000, Ideal.exp (c30 * x (ix2 ⟨(i 0).val, idx2_lt0 i⟩ j))

/-- The block the body leaves, at any index of the block (its column coordinate is 0). -/
theorem out_block_at (c : Dev nD) (i : grid0.Coords) (arg1 : Memref sig .tc .vmem S64x50000 .f32) (harg1 : arg1.IsWhole)
    (arg2 : Memref sig .tc .vmem S64x1 .f32) (harg2 : arg2.IsWhole) (x0 : Vec Ideal S64x50000 .f32) (y : S64x1.Idx) :
    out0_A_1 (F := Ideal) c i arg1 harg1 arg2 harg2 x0 y
      = ∑ j : Fin 50000, Ideal.exp (c30 * x0 (ix2 ⟨(y 0).val, idx2_lt0 y⟩ j)) := by
  obtain ⟨r, z, rfl⟩ : ∃ (r : Fin 64) (z : Fin 1), y = ix2 r z := ⟨y 0, y 1, eq_ix2 y⟩
  obtain rfl : z = 0 := Subsingleton.elim _ _
  exact out_block_apply c i arg1 harg1 arg2 harg2 x0 r

/-- The printed index maps over the grid: both windows' row-block index is the point's number, the column-block
    index is 0. -/
theorem idx00 : ∀ t : Fin cfg0.N, win0_0.index t (0 : Fin 2) = t.val :=
  (by decide +kernel : ∀ t : Fin grid0.N, win0_0.index t (0 : Fin 2) = t.val)
theorem idx01 : ∀ t : Fin cfg0.N, win0_0.index t (1 : Fin 2) = 0 :=
  (by decide +kernel : ∀ t : Fin grid0.N, win0_0.index t (1 : Fin 2) = 0)
theorem idx10 : ∀ t : Fin cfg0.N, win0_1.index t (0 : Fin 2) = t.val :=
  (by decide +kernel : ∀ t : Fin grid0.N, win0_1.index t (0 : Fin 2) = t.val)
theorem idx11 : ∀ t : Fin cfg0.N, win0_1.index t (1 : Fin 2) = 0 :=
  (by decide +kernel : ∀ t : Fin grid0.N, win0_1.index t (1 : Fin 2) = 0)
theorem idx_facts (t : Fin cfg0.N) : win0_0.index t (0 : Fin 2) = t.val ∧ win0_0.index t (1 : Fin 2) = 0
    ∧ win0_1.index t (0 : Fin 2) = t.val ∧ win0_1.index t (1 : Fin 2) = 0 :=
  ⟨idx00 t, idx01 t, idx10 t, idx11 t⟩

set_option maxRecDepth 400000 in
/-- WHAT POINT t WRITES BACK is block t of the column of row sums of the logits as the region finds them. -/
theorem flushed_eq (c : Dev nD) (t : Fin cfg0.N) :
    (dats m 0 c).flushed 1 t = ((cfg0.win 1).blk t).view.read (Elt Ideal) (rowSums (V m c main_arg0)) := by
  show (cfg0.win 1).cut (grid0.coords t) ((dats m 0 c).after 1 t) = _
  rw [after0_1]
  unfold outsAt0
  obtain ⟨e0, e1, e2, e3⟩ := idx_facts t
  funext y
  rw [View.read_apply]
  refine (out_block_at c (grid0.coords t) (ms0_0 t) (hs0_0 t) (ms0_1 t) (hs0_1 t) (iblk m c 0 t)
    ((cfg0.win 1).xinj (grid0.coords t) y)).trans ?_
  unfold rowSums
  refine Finset.sum_congr rfl fun j _ => ?_
  refine congrArg (fun v => Ideal.exp (c30 * v)) ?_
  show V m c main_arg0 (((cfg0.win 0).blk t).view.emb (ix2 ⟨((cfg0.win 1).xinj (grid0.coords t) y 0).val, idx2_lt0 _⟩ j))
    = V m c main_arg0 (ix2 ⟨(((cfg0.win 1).blk t).view.emb y 0).val, idx2_lt0 _⟩ j)
  refine congrArg (V m c main_arg0) (funext fun a => Fin.ext ?_)
  match a with
  | ⟨0, _⟩ =>
    show win0_0.index t (0 : Fin 2) * 64 + 1 * (y 0).val = win0_1.index t (0 : Fin 2) * 64 + 1 * (y 0).val
    rw [e0, e2]
  | ⟨1, _⟩ =>
    show win0_0.index t (1 : Fin 2) * 50000 + 1 * j.val = j.val
    rw [e1]; omega

/-- An index of the result array is in point t's block iff each coordinate is in the block's range on its axis. -/
theorem mem_blk (t : Fin cfg0.N) (i : S2048x1.Idx) :
    i ∈ ((cfg0.win 1).blk t).view.set ↔ ∀ a : Fin 2, win0_1.index t a * S64x1.size a ≤ (i a).val ∧ (i a).val < win0_1.index t a * S64x1.size a + S64x1.size a := by
  show i ∈ ((View.whole main_v37).slice (win0_1.rect t)).set ↔ _
  rw [View.set_slice_whole, Rect.mem_set_unit]
  exact Iff.rfl

/-- THE ARRAY after the region: the column of row sums. -/
theorem final (c : Dev nD) : (dats m 0 c).arrAt 1 cfg0.N = rowSums (V m c main_arg0) :=
  (dats m 0 c).arrAt_eq_of_cover 1 (rowSums (V m c main_arg0)) (fun t _ => flushed_eq m c t) fun i => by
    have hN : cfg0.N = 32 := N_0
    have hi0 : (i 0).val < 2048 := (i 0).isLt
    have hi1 : (i 1).val < 1 := (i 1).isLt
    refine ⟨⟨(i 0).val / 64, by rw [hN]; omega⟩, flush0_1 _, ?_⟩
    rw [mem_blk]
    obtain ⟨e0, e1, e2, e3⟩ := idx_facts ⟨(i 0).val / 64, by rw [hN]; omega⟩
    intro a
    match a with
    | ⟨0, _⟩ =>
      show win0_1.index _ (0 : Fin 2) * 64 ≤ (i 0).val ∧ (i 0).val < win0_1.index _ (0 : Fin 2) * 64 + 64
      rw [e2]; dsimp only; omega
    | ⟨1, _⟩ =>
      show win0_1.index _ (1 : Fin 2) * 1 ≤ (i 1).val ∧ (i 1).val < win0_1.index _ (1 : Fin 2) * 1 + 1
      rw [e3]; omega

end Cert.KernelIdeal.RowArray

end
-- ==== Proof.Spec.lean ====
/-
  The mathematics both programs compute, as pure functions of the three argument arrays
  (logits x : [2048, 50000], labels : [2048] of 32-bit integers, coefficients : [7]).

  For row i, with t(i) the label of row i wrapped once when negative:
    c(i)  = x[t(i), t(i)] clipped to [-(1 - ε), 1 - ε] and then to [-1, 1],
    N(i)  = 30 · p(c(i)),  p the degree-6 polynomial with the given coefficients (Horner's rule),
    o(i)  = the sum over all columns j of exp(30 · x[i, j]), less exp(30 · x[i, t(i)]),
    loss  = − ( Σ_i ( N(i) − log (exp N(i) + o(i)) ) ) / 2048.
  The reference forms o(i) as the difference of the full row sum and the gathered entry of exp(30 · x);
  the kernel program takes the row sums R from its Pallas kernel, gathers the entry of x first and
  exponentiates it, and clamps the difference at zero from below.  Everything but o(i) is one shared term.
-/
import Idealize.ShloMosaic.PureOps.Ideal
import Idealize.ShloMosaic.Lib.ValueIdx

noncomputable section

namespace ArcLoss

open Idealize.ShloMosaic

abbrev SX : Shape := ⟨2, ![2048, 50000]⟩
abbrev SB : Shape := ⟨1, ![2048]⟩
abbrev SB1 : Shape := ⟨2, ![2048, 1]⟩
abbrev SB2 : Shape := ⟨2, ![2048, 2]⟩
abbrev S7 : Shape := ⟨1, ![7]⟩
abbrev S1 : Shape := ⟨1, ![1]⟩
abbrev S0 : Shape := ⟨0, ![]⟩

theorem bc0B : S0.BroadcastsInDim SB (![] : Fin 0 → Fin SB.rank) := by decide
theorem bc0X : S0.BroadcastsInDim SX (![] : Fin 0 → Fin SX.rank) := by decide
theorem bcBB1 : SB.BroadcastsInDim SB1 (![0] : Fin 1 → Fin SB1.rank) := by decide
theorem cat2 : Shape.Concatenates [SB1, SB1] SB2 1 := by decide
theorem sl7 : S7.Slices ![0] S7 := by decide
theorem sl (k : Fin 7) : S7.Slices ![k.val] S1 := by revert k; decide
theorem sc10 : S1.ShapeCasts S0 := by decide
theorem scB1B : SB1.ShapeCasts SB := by decide
theorem redXB : SX.ReducesTo [1] SB := by decide
theorem redB0 : SB.ReducesTo [0] S0 := by decide
theorem pos0 : 0 < S0.numel := by decide
theorem gwf : GatherDims.WF SX SB2 SB [] [0, 1] [] [0, 1] [] 1 ![1, 1] := by decide

/-- The point gather x[r, c] over an array of (row, column) pairs: both axes collapsed, slices 1 × 1. -/
def pointGather : GatherDims SX SB2 SB where
  offsetDims := []
  collapsedSliceDims := [0, 1]
  operandBatchingDims := []
  startIndicesBatchingDims := []
  startIndexMap := [0, 1]
  indexVectorDim := 1
  sliceSizes := ![1, 1]
  wf := gwf

variable {F : FTy → Type} [FloatOps F]

/-- jax's wrap-around of an index vector for an axis of extent n: v + n where v is negative, else v. -/
def wrap (n : BitVec 32) (v : IVec SB 32) : IVec SB 32 :=
  select (cmpi .slt v (broadcastInDim SB ![] bc0B (constantI S0 32 0#32)))
    (addi v (broadcastInDim SB ![] bc0B (constantI S0 32 n))) v

/-- Two index vectors side by side as an array of (row, column) pairs. -/
def pairs (r c : IVec SB 32) : IVec SB2 32 :=
  concatenate SB2 1 [⟨SB1, broadcastInDim SB1 ![0] bcBB1 r⟩, ⟨SB1, broadcastInDim SB1 ![0] bcBB1 c⟩] cat2

/-- The pairs (t(i), t(i)). -/
def diagPairs (lab : IVec SB 32) : IVec SB2 32 := pairs (wrap 2048#32 lab) (wrap 50000#32 lab)

/-- The pairs (i, t(i)). -/
def rowPairs (lab : IVec SB 32) : IVec SB2 32 := pairs (wrap 2048#32 (iotaInDim SB 32 0)) (wrap 50000#32 lab)

/-- jnp.clip with scalar bounds: min(hi, max(lo, v)). -/
def clip (lo hi : BitVec 32) (v : FVec F SB .f32) : FVec F SB .f32 :=
  minimumf (broadcastInDim SB ![] bc0B (id (constant S0 .f32 hi)))
    (maximumf (broadcastInDim SB ![] bc0B (id (constant S0 .f32 lo))) v)

/-- One step of Horner's rule: acc · x + coef[k]. -/
def hornerStep (coef : FVec F S7 .f32) (x : FVec F SB .f32) (k : Fin 7) (acc : FVec F SB .f32) : FVec F SB .f32 :=
  addf (mulf acc x)
    (broadcastInDim SB ![] bc0B
      (shapeCast S0 (extractStridedSlice S1 ![k.val] (extractStridedSlice S7 ![0] coef sl7) (sl k)) sc10))

/-- jnp.polyval of degree 6, from a zero accumulator. -/
def horner (coef : FVec F S7 .f32) (x : FVec F SB .f32) : FVec F SB .f32 :=
  hornerStep coef x 6 (hornerStep coef x 5 (hornerStep coef x 4 (hornerStep coef x 3 (hornerStep coef x 2
    (hornerStep coef x 1 (hornerStep coef x 0
      (broadcastInDim SB ![] bc0B (constant S0 .f32 0x00000000#32))))))))

/-- N: 30 times the polynomial of the clipped diagonal entry. -/
def numer (x : FVec F SX .f32) (lab : IVec SB 32) (coef : FVec F S7 .f32) : FVec F SB .f32 :=
  mulf (broadcastInDim SB ![] bc0B (constant S0 .f32 0x41F00000#32))
    (horner coef (clip 0xBF800000#32 0x3F800000#32 (clip 0xBF7FFFFE#32 0x3F7FFFFE#32
      (Host.gather pointGather x (diagPairs lab)))))

/-- The loss from N and the others' sums o. -/
def lossOf (N o : FVec F SB .f32) : FVec F S0 .f32 :=
  Host.negf (Host.divf
    (Host.reduceAdd (subf N (Host.log (addf (Host.exp N) o))) (constant S0 .f32 0x00000000#32) redB0 pos0)
    (constant S0 .f32 0x45000000#32))

/-- exp(30 · x), entry by entry. -/
def expScaled (x : FVec F SX .f32) : FVec F SX .f32 :=
  Host.exp (mulf (broadcastInDim SX ![] bc0X (constant S0 .f32 0x41F00000#32)) x)

/-- The reference's o: the row sums of exp(30 · x) less its entry at (i, t(i)). -/
def othersRef (x : FVec F SX .f32) (lab : IVec SB 32) : FVec F SB .f32 :=
  subf (Host.reduceAdd (expScaled x) (constant S0 .f32 0x00000000#32) redXB pos0)
    (Host.gather pointGather (expScaled x) (rowPairs lab))

/-- The kernel program's o from a column R of row sums: max(R − exp(30 · x[i, t(i)]), 0). -/
def othersKer (R : FVec F SB1 .f32) (x : FVec F SX .f32) (lab : IVec SB 32) : FVec F SB .f32 :=
  maximumf
    (subf (shapeCast SB R scB1B)
      (Host.exp (mulf (broadcastInDim SB ![] bc0B (constant S0 .f32 0x41F00000#32))
        (Host.gather pointGather x (rowPairs lab)))))
    (broadcastInDim SB ![] bc0B (constant S0 .f32 0x00000000#32))

/-- The reference's result. -/
def refOut (x : FVec F SX .f32) (lab : IVec SB 32) (coef : FVec F S7 .f32) : FVec F S0 .f32 :=
  lossOf (numer x lab coef) (othersRef x lab)

/-- The kernel program's result from its kernel's column of row sums. -/
def kerOut (R : FVec F SB1 .f32) (x : FVec F SX .f32) (lab : IVec SB 32) (coef : FVec F S7 .f32) : FVec F S0 .f32 :=
  lossOf (numer x lab coef) (othersKer R x lab)

end ArcLoss

end
-- ==== Proof.KerHost.lean ====
/-
  The kernel program's host side: what its host operations compute before and after the region, as the
  shared terms of the three argument arrays. Before the region: thirty times the polynomial of the twice-clipped
  diagonal entry, and the exponential of thirty times the entry at (i, t(i)). After it: the loss from that
  numerator and the kernel's column of row sums, less the exponentiated entry, clamped at zero from below.
-/
import proofs.«138141_j21844203667631_2_alg».proof.Proof.Gen.KernelIdeal.Frame
import proofs.«138141_j21844203667631_2_alg».proof.Proof.Spec
import Idealize.ShloMosaic.Lib.StableHlo.Run

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

-- the gathers and the reductions stay folded: the equation never looks inside them
attribute [local irreducible] Host.gather Host.reduceAdd in
set_option maxRecDepth 8192 in
set_option maxHeartbeats 44400000 in
/-- Before the region the host operations leave, at the numerator's buffer, thirty times the polynomial of the
    twice-clipped diagonal entry: the fold of the operations before the region read at that buffer. -/
theorem numer_eq :
    V m c main_v19 = ArcLoss.numer (m ((c : Thread nD τ).loc main_arg0)) (m ((c : Thread nD τ).loc main_arg1))
      (m ((c : Thread nD τ).loc main_arg2)) := by
  dsimp only [V, V0]
  simp only [hostOps0, hostOps0_1, hostOps0_2, hostOps0_3, hostOps0_4, hostOps0_5, List.flatten_cons, List.flatten_nil, List.append_nil, List.cons_append, List.nil_append]
  after_results_simp
  rfl

attribute [local irreducible] Host.gather Host.reduceAdd in
set_option maxRecDepth 8192 in
set_option maxHeartbeats 44400000 in
/-- Before the region the host operations leave, at the gathered entry's buffer, the exponential of thirty times
    the entry at (i, t(i)). -/
theorem target_eq :
    V m c main_v36 = Host.exp (mulf (broadcastInDim ArcLoss.SB ![] ArcLoss.bc0B (constant ArcLoss.S0 .f32 0x41F00000#32))
      (Host.gather ArcLoss.pointGather (m ((c : Thread nD τ).loc main_arg0)) (ArcLoss.rowPairs (m ((c : Thread nD τ).loc main_arg1))))) := by
  dsimp only [V, V0]
  simp only [hostOps0, hostOps0_1, hostOps0_2, hostOps0_3, hostOps0_4, hostOps0_5, List.flatten_cons, List.flatten_nil, List.append_nil, List.cons_append, List.nil_append]
  after_results_simp
  rfl

attribute [local irreducible] Host.gather Host.reduceAdd in
set_option maxRecDepth 8192 in
set_option maxHeartbeats 4000000 in
/-- After the region the host operations leave, at the result buffer, the loss from the numerator and the kernel's
    column of row sums: the tail's fold from the region's exit contents — the kernel's output array at what the
    region leaves in it, the numerator's and the gathered entry's buffers as the region found them. -/
theorem kernel_out :
    Pipeline.afterTail₀ cfgs (dats m) 0 (V0 m) [hostOps1] c main_v48
      = ArcLoss.kerOut ((dats m 0 c).arrAt 1 cfg0.N) (m ((c : Thread nD τ).loc main_arg0))
          (m ((c : Thread nD τ).loc main_arg1)) (m ((c : Thread nD τ).loc main_arg2)) := by
  have h19 : V0 m c (Proc.devRef .tc main_v19) = _ := numer_eq m c
  have h36 : V0 m c (Proc.devRef .tc main_v36) = _ := target_eq m c
  unfold Pipeline.afterTail₀
  show StableHlo.after hostOps1 _ (Proc.devRef .tc main_v48) = _
  after_results
  rw [Pipeline.withArrays_arr spec0 launch0.win.arr_inj c _ _ 1,
    Pipeline.withArrays_of_ne _ c (V0 m c) _ main_v19 (by exact (by decide : ∀ w, Pipeline.arrRef spec0 w ≠ main_v19)),
    Pipeline.withArrays_of_ne _ c (V0 m c) _ main_v36 (by exact (by decide : ∀ w, Pipeline.arrRef spec0 w ≠ main_v36)),
    h19, h36]
  rfl

end Cert.KernelIdeal.KerHost

end
-- ==== Proof.RefRun.lean ====
/-
  The reference program's @main as one list of its 111 host operations in program order, each call's
  operations written at its call site over that call's buffers (the two clips: six each; the polynomial:
  thirty-nine, seven Horner steps of three operations between the coefficient slices), and its run read
  back: every weakly fair execution terminates with every buffer at the fold of the operations' results
  over the launch contents; the arguments are never written, and the fold at the result buffer is the
  composed term of the three arguments.
-/
import proofs.«138141_j21844203667631_2_alg».proof.Proof.Gen.ReferenceIdeal
import proofs.«138141_j21844203667631_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 111 operations, in order, the called functions' operations at their call sites. -/
abbrev ops : List (HloOp τ sig (Elt F)) :=
  [ StableHlo.nullary main_c (constantI S_ 32 0#32),
    StableHlo.unary main_c main_v0 (broadcastInDim S2048 ![] bcast_S_S2048 : (⟨S_, .i32⟩ : BufTy).Contents (Elt F) → (⟨S2048, .i32⟩ : BufTy).Contents (Elt F)),
    StableHlo.binary main_arg1 main_v0 main_v1 (cmpi .slt : (⟨S2048, .i32⟩ : BufTy).Contents (Elt F) → (⟨S2048, .i32⟩ : BufTy).Contents (Elt F) → (⟨S2048, .i1⟩ : BufTy).Contents (Elt F)),
    StableHlo.nullary main_c_0 (constantI S_ 32 2048#32),
    StableHlo.unary main_c_0 main_v2 (broadcastInDim S2048 ![] bcast_S_S2048 : (⟨S_, .i32⟩ : BufTy).Contents (Elt F) → (⟨S2048, .i32⟩ : BufTy).Contents (Elt F)),
    StableHlo.binary main_arg1 main_v2 main_v3 (addi : (⟨S2048, .i32⟩ : BufTy).Contents (Elt F) → (⟨S2048, .i32⟩ : BufTy).Contents (Elt F) → (⟨S2048, .i32⟩ : BufTy).Contents (Elt F)),
    StableHlo.ternary main_v1 main_v3 main_arg1 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_1 (constantI S_ 32 0#32),
    StableHlo.unary main_c_1 main_v5 (broadcastInDim S2048 ![] bcast_S_S2048 : (⟨S_, .i32⟩ : BufTy).Contents (Elt F) → (⟨S2048, .i32⟩ : BufTy).Contents (Elt F)),
    StableHlo.binary main_arg1 main_v5 main_v6 (cmpi .slt : (⟨S2048, .i32⟩ : BufTy).Contents (Elt F) → (⟨S2048, .i32⟩ : BufTy).Contents (Elt F) → (⟨S2048, .i1⟩ : BufTy).Contents (Elt F)),
    StableHlo.nullary main_c_2 (constantI S_ 32 50000#32),
    StableHlo.unary main_c_2 main_v7 (broadcastInDim S2048 ![] bcast_S_S2048 : (⟨S_, .i32⟩ : BufTy).Contents (Elt F) → (⟨S2048, .i32⟩ : BufTy).Contents (Elt F)),
    StableHlo.binary main_arg1 main_v7 main_v8 (addi : (⟨S2048, .i32⟩ : BufTy).Contents (Elt F) → (⟨S2048, .i32⟩ : BufTy).Contents (Elt F) → (⟨S2048, .i32⟩ : BufTy).Contents (Elt F)),
    StableHlo.ternary main_v6 main_v8 main_arg1 main_v9 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v4 main_v10 (broadcastInDim S2048x1 ![0] bcast_S2048_S2048x1_0 : (⟨S2048, .i32⟩ : BufTy).Contents (Elt F) → (⟨S2048x1, .i32⟩ : BufTy).Contents (Elt F)),
    StableHlo.unary main_v9 main_v11 (broadcastInDim S2048x1 ![0] bcast_S2048_S2048x1_0 : (⟨S2048, .i32⟩ : BufTy).Contents (Elt F) → (⟨S2048x1, .i32⟩ : BufTy).Contents (Elt F)),
    StableHlo.binary main_v10 main_v11 main_v12 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.binary main_arg0 main_v12 main_v13 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F)),
    StableHlo.nullary main_cst (constant S_ .f32 0xBF7FFFFE#32),
    StableHlo.nullary main_cst_3 (constant S_ .f32 0x3F7FFFFE#32),
    StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2048, .f32⟩) (broadcastInDim S2048 ![] bcast_S_S2048),
    StableHlo.TRef.binary (.of main_call0_v1 : StableHlo.TRef sig ⟨S2048, .f32⟩) (.of main_v13 : StableHlo.TRef sig ⟨S2048, .f32⟩) (.of main_call0_v2 : StableHlo.TRef sig ⟨S2048, .f32⟩) maximumf,
    StableHlo.TRef.unary (.of main_cst_3 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S2048, .f32⟩) (broadcastInDim S2048 ![] bcast_S_S2048),
    StableHlo.TRef.binary (.of main_call0_v4 : StableHlo.TRef sig ⟨S2048, .f32⟩) (.of main_call0_v2 : StableHlo.TRef sig ⟨S2048, .f32⟩) (.of main_v14 : StableHlo.TRef sig ⟨S2048, .f32⟩) minimumf,
    StableHlo.nullary main_cst_4 (constant S_ .f32 0xBF800000#32),
    StableHlo.nullary main_cst_5 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2048, .f32⟩) (broadcastInDim S2048 ![] bcast_S_S2048),
    StableHlo.TRef.binary (.of main_call1_v1 : StableHlo.TRef sig ⟨S2048, .f32⟩) (.of main_v14 : StableHlo.TRef sig ⟨S2048, .f32⟩) (.of main_call1_v2 : StableHlo.TRef sig ⟨S2048, .f32⟩) maximumf,
    StableHlo.TRef.unary (.of main_cst_5 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S2048, .f32⟩) (broadcastInDim S2048 ![] bcast_S_S2048),
    StableHlo.TRef.binary (.of main_call1_v4 : StableHlo.TRef sig ⟨S2048, .f32⟩) (.of main_call1_v2 : StableHlo.TRef sig ⟨S2048, .f32⟩) (.of main_v15 : StableHlo.TRef sig ⟨S2048, .f32⟩) minimumf,
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S2048, .f32⟩) (broadcastInDim S2048 ![] bcast_S_S2048),
    StableHlo.TRef.unary (.of main_arg2 : StableHlo.TRef sig ⟨S7, .f32⟩) (.of main_call2_v1 : StableHlo.TRef sig ⟨S0, .f32⟩) (extractStridedSlice S0 ![0] · slices_S7_S0_0),
    StableHlo.TRef.unary (.of main_arg2 : StableHlo.TRef sig ⟨S7, .f32⟩) (.of main_call2_v2 : StableHlo.TRef sig ⟨S7, .f32⟩) (extractStridedSlice S7 ![0] · slices_S7_S7_0),
    StableHlo.TRef.unary (.of main_call2_v2 : StableHlo.TRef sig ⟨S7, .f32⟩) (.of main_call2_v3 : StableHlo.TRef sig ⟨S1, .f32⟩) (extractStridedSlice S1 ![0] · slices_S7_S1_0),
    StableHlo.TRef.reshape (.of main_call2_v3 : StableHlo.TRef sig ⟨S1, .f32⟩) (.of main_call2_v4 : StableHlo.TRef sig ⟨S_, .f32⟩) rfl shapeCasts_S1_S_,
    StableHlo.TRef.binary (.of main_call2_v0 : StableHlo.TRef sig ⟨S2048, .f32⟩) (.of main_v15 : StableHlo.TRef sig ⟨S2048, .f32⟩) (.of main_call2_call0_v0 : StableHlo.TRef sig ⟨S2048, .f32⟩) mulf,
    StableHlo.TRef.unary (.of main_call2_v4 : StableHlo.TRef sig ⟨S_, .f32⟩) (.of main_call2_call0_v1 : StableHlo.TRef sig ⟨S2048, .f32⟩) (broadcastInDim S2048 ![] bcast_S_S2048),
    StableHlo.TRef.binary (.of main_call2_call0_v0 : StableHlo.TRef sig ⟨S2048, .f32⟩) (.of main_call2_call0_v1 : StableHlo.TRef sig ⟨S2048, .f32⟩) (.of main_call2_v5 : StableHlo.TRef sig ⟨S2048, .f32⟩) addf,
    StableHlo.TRef.unary (.of main_call2_v2 : StableHlo.TRef sig ⟨S7, .f32⟩) (.of main_call2_v6 : StableHlo.TRef sig ⟨S1, .f32⟩) (extractStridedSlice S1 ![1] · slices_S7_S1_1),
    StableHlo.TRef.reshape (.of main_call2_v6 : StableHlo.TRef sig ⟨S1, .f32⟩) (.of main_call2_v7 : StableHlo.TRef sig ⟨S_, .f32⟩) rfl shapeCasts_S1_S_,
    StableHlo.TRef.binary (.of main_call2_v5 : StableHlo.TRef sig ⟨S2048, .f32⟩) (.of main_v15 : StableHlo.TRef sig ⟨S2048, .f32⟩) (.of main_call2_call1_v0 : StableHlo.TRef sig ⟨S2048, .f32⟩) mulf,
    StableHlo.TRef.unary (.of main_call2_v7 : StableHlo.TRef sig ⟨S_, .f32⟩) (.of main_call2_call1_v1 : StableHlo.TRef sig ⟨S2048, .f32⟩) (broadcastInDim S2048 ![] bcast_S_S2048),
    StableHlo.TRef.binary (.of main_call2_call1_v0 : StableHlo.TRef sig ⟨S2048, .f32⟩) (.of main_call2_call1_v1 : StableHlo.TRef sig ⟨S2048, .f32⟩) (.of main_call2_v8 : StableHlo.TRef sig ⟨S2048, .f32⟩) addf,
    StableHlo.TRef.unary (.of main_call2_v2 : StableHlo.TRef sig ⟨S7, .f32⟩) (.of main_call2_v9 : StableHlo.TRef sig ⟨S1, .f32⟩) (extractStridedSlice S1 ![2] · slices_S7_S1_2),
    StableHlo.TRef.reshape (.of main_call2_v9 : StableHlo.TRef sig ⟨S1, .f32⟩) (.of main_call2_v10 : StableHlo.TRef sig ⟨S_, .f32⟩) rfl shapeCasts_S1_S_,
    StableHlo.TRef.binary (.of main_call2_v8 : StableHlo.TRef sig ⟨S2048, .f32⟩) (.of main_v15 : StableHlo.TRef sig ⟨S2048, .f32⟩) (.of main_call2_call2_v0 : StableHlo.TRef sig ⟨S2048, .f32⟩) mulf,
    StableHlo.TRef.unary (.of main_call2_v10 : StableHlo.TRef sig ⟨S_, .f32⟩) (.of main_call2_call2_v1 : StableHlo.TRef sig ⟨S2048, .f32⟩) (broadcastInDim S2048 ![] bcast_S_S2048),
    StableHlo.TRef.binary (.of main_call2_call2_v0 : StableHlo.TRef sig ⟨S2048, .f32⟩) (.of main_call2_call2_v1 : StableHlo.TRef sig ⟨S2048, .f32⟩) (.of main_call2_v11 : StableHlo.TRef sig ⟨S2048, .f32⟩) addf,
    StableHlo.TRef.unary (.of main_call2_v2 : StableHlo.TRef sig ⟨S7, .f32⟩) (.of main_call2_v12 : StableHlo.TRef sig ⟨S1, .f32⟩) (extractStridedSlice S1 ![3] · slices_S7_S1_3),
    StableHlo.TRef.reshape (.of main_call2_v12 : StableHlo.TRef sig ⟨S1, .f32⟩) (.of main_call2_v13 : StableHlo.TRef sig ⟨S_, .f32⟩) rfl shapeCasts_S1_S_,
    StableHlo.TRef.binary (.of main_call2_v11 : StableHlo.TRef sig ⟨S2048, .f32⟩) (.of main_v15 : StableHlo.TRef sig ⟨S2048, .f32⟩) (.of main_call2_call3_v0 : StableHlo.TRef sig ⟨S2048, .f32⟩) mulf,
    StableHlo.TRef.unary (.of main_call2_v13 : StableHlo.TRef sig ⟨S_, .f32⟩) (.of main_call2_call3_v1 : StableHlo.TRef sig ⟨S2048, .f32⟩) (broadcastInDim S2048 ![] bcast_S_S2048),
    StableHlo.TRef.binary (.of main_call2_call3_v0 : StableHlo.TRef sig ⟨S2048, .f32⟩) (.of main_call2_call3_v1 : StableHlo.TRef sig ⟨S2048, .f32⟩) (.of main_call2_v14 : StableHlo.TRef sig ⟨S2048, .f32⟩) addf,
    StableHlo.TRef.unary (.of main_call2_v2 : StableHlo.TRef sig ⟨S7, .f32⟩) (.of main_call2_v15 : StableHlo.TRef sig ⟨S1, .f32⟩) (extractStridedSlice S1 ![4] · slices_S7_S1_4),
    StableHlo.TRef.reshape (.of main_call2_v15 : StableHlo.TRef sig ⟨S1, .f32⟩) (.of main_call2_v16 : StableHlo.TRef sig ⟨S_, .f32⟩) rfl shapeCasts_S1_S_,
    StableHlo.TRef.binary (.of main_call2_v14 : StableHlo.TRef sig ⟨S2048, .f32⟩) (.of main_v15 : StableHlo.TRef sig ⟨S2048, .f32⟩) (.of main_call2_call4_v0 : StableHlo.TRef sig ⟨S2048, .f32⟩) mulf,
    StableHlo.TRef.unary (.of main_call2_v16 : StableHlo.TRef sig ⟨S_, .f32⟩) (.of main_call2_call4_v1 : StableHlo.TRef sig ⟨S2048, .f32⟩) (broadcastInDim S2048 ![] bcast_S_S2048),
    StableHlo.TRef.binary (.of main_call2_call4_v0 : StableHlo.TRef sig ⟨S2048, .f32⟩) (.of main_call2_call4_v1 : StableHlo.TRef sig ⟨S2048, .f32⟩) (.of main_call2_v17 : StableHlo.TRef sig ⟨S2048, .f32⟩) addf,
    StableHlo.TRef.unary (.of main_call2_v2 : StableHlo.TRef sig ⟨S7, .f32⟩) (.of main_call2_v18 : StableHlo.TRef sig ⟨S1, .f32⟩) (extractStridedSlice S1 ![5] · slices_S7_S1_5),
    StableHlo.TRef.reshape (.of main_call2_v18 : StableHlo.TRef sig ⟨S1, .f32⟩) (.of main_call2_v19 : StableHlo.TRef sig ⟨S_, .f32⟩) rfl shapeCasts_S1_S_,
    StableHlo.TRef.binary (.of main_call2_v17 : StableHlo.TRef sig ⟨S2048, .f32⟩) (.of main_v15 : StableHlo.TRef sig ⟨S2048, .f32⟩) (.of main_call2_call5_v0 : StableHlo.TRef sig ⟨S2048, .f32⟩) mulf,
    StableHlo.TRef.unary (.of main_call2_v19 : StableHlo.TRef sig ⟨S_, .f32⟩) (.of main_call2_call5_v1 : StableHlo.TRef sig ⟨S2048, .f32⟩) (broadcastInDim S2048 ![] bcast_S_S2048),
    StableHlo.TRef.binary (.of main_call2_call5_v0 : StableHlo.TRef sig ⟨S2048, .f32⟩) (.of main_call2_call5_v1 : StableHlo.TRef sig ⟨S2048, .f32⟩) (.of main_call2_v20 : StableHlo.TRef sig ⟨S2048, .f32⟩) addf,
    StableHlo.TRef.unary (.of main_call2_v2 : StableHlo.TRef sig ⟨S7, .f32⟩) (.of main_call2_v21 : StableHlo.TRef sig ⟨S1, .f32⟩) (extractStridedSlice S1 ![6] · slices_S7_S1_6),
    StableHlo.TRef.reshape (.of main_call2_v21 : StableHlo.TRef sig ⟨S1, .f32⟩) (.of main_call2_v22 : StableHlo.TRef sig ⟨S_, .f32⟩) rfl shapeCasts_S1_S_,
    StableHlo.TRef.binary (.of main_call2_v20 : StableHlo.TRef sig ⟨S2048, .f32⟩) (.of main_v15 : StableHlo.TRef sig ⟨S2048, .f32⟩) (.of main_call2_call6_v0 : StableHlo.TRef sig ⟨S2048, .f32⟩) mulf,
    StableHlo.TRef.unary (.of main_call2_v22 : StableHlo.TRef sig ⟨S_, .f32⟩) (.of main_call2_call6_v1 : StableHlo.TRef sig ⟨S2048, .f32⟩) (broadcastInDim S2048 ![] bcast_S_S2048),
    StableHlo.TRef.binary (.of main_call2_call6_v0 : StableHlo.TRef sig ⟨S2048, .f32⟩) (.of main_call2_call6_v1 : StableHlo.TRef sig ⟨S2048, .f32⟩) (.of main_v16 : StableHlo.TRef sig ⟨S2048, .f32⟩) addf,
    StableHlo.nullary main_cst_6 (constant S_ .f32 0x41F00000#32),
    StableHlo.unary main_cst_6 main_v17 (broadcastInDim S2048 ![] bcast_S_S2048 : (⟨S_, .f32⟩ : BufTy).Contents (Elt F) → (⟨S2048, .f32⟩ : BufTy).Contents (Elt F)),
    StableHlo.binary main_v17 main_v16 main_v18 (mulf : (⟨S2048, .f32⟩ : BufTy).Contents (Elt F) → (⟨S2048, .f32⟩ : BufTy).Contents (Elt F) → (⟨S2048, .f32⟩ : BufTy).Contents (Elt F)),
    StableHlo.nullary main_cst_7 (constant S_ .f32 0x41F00000#32),
    StableHlo.unary main_cst_7 main_v19 (broadcastInDim S2048x50000 ![] bcast_S_S2048x50000 : (⟨S_, .f32⟩ : BufTy).Contents (Elt F) → (⟨S2048x50000, .f32⟩ : BufTy).Contents (Elt F)),
    StableHlo.binary main_v19 main_arg0 main_v20 (mulf : (⟨S2048x50000, .f32⟩ : BufTy).Contents (Elt F) → (⟨S2048x50000, .f32⟩ : BufTy).Contents (Elt F) → (⟨S2048x50000, .f32⟩ : BufTy).Contents (Elt F)),
    StableHlo.unary main_v20 main_v21 (Host.exp : (⟨S2048x50000, .f32⟩ : BufTy).Contents (Elt F) → (⟨S2048x50000, .f32⟩ : BufTy).Contents (Elt F)),
    StableHlo.nullary main_v22 (iotaInDim S2048 32 0),
    StableHlo.nullary main_cst_8 (constant S_ .f32 0x00000000#32),
    StableHlo.binary main_v21 main_cst_8 main_v23 ((fun x v => Host.reduceAdd x v reducesTo_S2048x50000_S2048_d1 h_S_) : (⟨S2048x50000, .f32⟩ : BufTy).Contents (Elt F) → (⟨S_, .f32⟩ : BufTy).Contents (Elt F) → (⟨S2048, .f32⟩ : BufTy).Contents (Elt F)),
    StableHlo.nullary main_c_9 (constantI S_ 32 0#32),
    StableHlo.unary main_c_9 main_v24 (broadcastInDim S2048 ![] bcast_S_S2048 : (⟨S_, .i32⟩ : BufTy).Contents (Elt F) → (⟨S2048, .i32⟩ : BufTy).Contents (Elt F)),
    StableHlo.binary main_v22 main_v24 main_v25 (cmpi .slt : (⟨S2048, .i32⟩ : BufTy).Contents (Elt F) → (⟨S2048, .i32⟩ : BufTy).Contents (Elt F) → (⟨S2048, .i1⟩ : BufTy).Contents (Elt F)),
    StableHlo.nullary main_c_10 (constantI S_ 32 2048#32),
    StableHlo.unary main_c_10 main_v26 (broadcastInDim S2048 ![] bcast_S_S2048 : (⟨S_, .i32⟩ : BufTy).Contents (Elt F) → (⟨S2048, .i32⟩ : BufTy).Contents (Elt F)),
    StableHlo.binary main_v22 main_v26 main_v27 (addi : (⟨S2048, .i32⟩ : BufTy).Contents (Elt F) → (⟨S2048, .i32⟩ : BufTy).Contents (Elt F) → (⟨S2048, .i32⟩ : BufTy).Contents (Elt F)),
    StableHlo.ternary main_v25 main_v27 main_v22 main_v28 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.nullary main_c_11 (constantI S_ 32 0#32),
    StableHlo.unary main_c_11 main_v29 (broadcastInDim S2048 ![] bcast_S_S2048 : (⟨S_, .i32⟩ : BufTy).Contents (Elt F) → (⟨S2048, .i32⟩ : BufTy).Contents (Elt F)),
    StableHlo.binary main_arg1 main_v29 main_v30 (cmpi .slt : (⟨S2048, .i32⟩ : BufTy).Contents (Elt F) → (⟨S2048, .i32⟩ : BufTy).Contents (Elt F) → (⟨S2048, .i1⟩ : BufTy).Contents (Elt F)),
    StableHlo.nullary main_c_12 (constantI S_ 32 50000#32),
    StableHlo.unary main_c_12 main_v31 (broadcastInDim S2048 ![] bcast_S_S2048 : (⟨S_, .i32⟩ : BufTy).Contents (Elt F) → (⟨S2048, .i32⟩ : BufTy).Contents (Elt F)),
    StableHlo.binary main_arg1 main_v31 main_v32 (addi : (⟨S2048, .i32⟩ : BufTy).Contents (Elt F) → (⟨S2048, .i32⟩ : BufTy).Contents (Elt F) → (⟨S2048, .i32⟩ : BufTy).Contents (Elt F)),
    StableHlo.ternary main_v30 main_v32 main_arg1 main_v33 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v28 main_v34 (broadcastInDim S2048x1 ![0] bcast_S2048_S2048x1_0 : (⟨S2048, .i32⟩ : BufTy).Contents (Elt F) → (⟨S2048x1, .i32⟩ : BufTy).Contents (Elt F)),
    StableHlo.unary main_v33 main_v35 (broadcastInDim S2048x1 ![0] bcast_S2048_S2048x1_0 : (⟨S2048, .i32⟩ : BufTy).Contents (Elt F) → (⟨S2048x1, .i32⟩ : BufTy).Contents (Elt F)),
    StableHlo.binary main_v34 main_v35 main_v36 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    StableHlo.binary main_v21 main_v36 main_v37 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F)),
    StableHlo.binary main_v23 main_v37 main_v38 (subf : (⟨S2048, .f32⟩ : BufTy).Contents (Elt F) → (⟨S2048, .f32⟩ : BufTy).Contents (Elt F) → (⟨S2048, .f32⟩ : BufTy).Contents (Elt F)),
    StableHlo.unary main_v18 main_v39 (Host.exp : (⟨S2048, .f32⟩ : BufTy).Contents (Elt F) → (⟨S2048, .f32⟩ : BufTy).Contents (Elt F)),
    StableHlo.binary main_v39 main_v38 main_v40 (addf : (⟨S2048, .f32⟩ : BufTy).Contents (Elt F) → (⟨S2048, .f32⟩ : BufTy).Contents (Elt F) → (⟨S2048, .f32⟩ : BufTy).Contents (Elt F)),
    StableHlo.unary main_v40 main_v41 (Host.log : (⟨S2048, .f32⟩ : BufTy).Contents (Elt F) → (⟨S2048, .f32⟩ : BufTy).Contents (Elt F)),
    StableHlo.binary main_v18 main_v41 main_v42 (subf : (⟨S2048, .f32⟩ : BufTy).Contents (Elt F) → (⟨S2048, .f32⟩ : BufTy).Contents (Elt F) → (⟨S2048, .f32⟩ : BufTy).Contents (Elt F)),
    StableHlo.nullary main_cst_13 (constant S_ .f32 0x00000000#32),
    StableHlo.binary main_v42 main_cst_13 main_v43 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_14 (constant S_ .f32 0x45000000#32),
    StableHlo.binary main_v43 main_cst_14 main_v44 (Host.divf : (⟨S_, .f32⟩ : BufTy).Contents (Elt F) → (⟨S_, .f32⟩ : BufTy).Contents (Elt F) → (⟨S_, .f32⟩ : BufTy).Contents (Elt F)),
    StableHlo.unary main_v44 main_v45 (Host.negf : (⟨S_, .f32⟩ : BufTy).Contents (Elt F) → (⟨S_, .f32⟩ : BufTy).Contents (Elt F)) ]

-- both sides are one chain of operation steps once the two windows and the called functions' bodies unfold
set_option maxRecDepth 8192 in
set_option maxHeartbeats 4000000 in
/-- @main is that straight line: its two windows in order, each call the callee's body at the call's buffers. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., reshape_bufs_sub .., binary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., unary_bufs_sub .., reshape_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., unary_bufs_sub .., binary_bufs_sub .., unary_bufs_sub .., binary_bufs_sub .., nullary_bufs_sub .., binary_bufs_sub .., nullary_bufs_sub .., binary_bufs_sub .., unary_bufs_sub ..⟩

/-- At the compiled mesh, for any float values, from any memory with zero counters: every weakly fair execution
    of @main terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument: each operation writes its one result buffer, a different reference. -/

set_option maxRecDepth 8192 in
set_option maxHeartbeats 4000000 in
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
theorem arg2_eq (V : Valuation τ sig (Elt F)) :
    after ops V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

-- the gather and the two reductions stay folded: the equation never looks inside them
attribute [local irreducible] Host.gather Host.reduceAdd in
set_option maxRecDepth 8192 in
set_option maxHeartbeats 44400000 in
/-- The fold at the result buffer is the composed term of the three arguments: each operation's result at its own
    buffer is its function's value of its operands' contents and at any other buffer what was there; what is left
    differs from the composed term by the unfolding of its definitions, the typed references' identity casts and
    proofs of shape facts. -/
theorem out_eq (V : Valuation τ sig (Elt F)) :
    after ops V (main_v45 : DevRef τ sig)
      = ArcLoss.refOut (V (main_arg0 : DevRef τ sig)) (V (main_arg1 : DevRef τ sig)) (V (main_arg2 : DevRef τ sig)) := by
  after_results_simp
  rfl

end Cert.ReferenceIdeal.RefRun

end
-- ==== Proof.LibWrapPairs.lean ====
import Idealize.ShloMosaic.PureOps
import Idealize.ShloMosaic.Lib.ValueIdx
import Idealize.ShloMosaic.Lib.ValueLayout
import Idealize.ShloMosaic.Lib.Pipeline.Value

/-!
# Wrap-around of a pair of index columns before a scatter

An update `x.at[idx[:, 0], idx[:, 1]].set(v)` with an integer array `idx : [N, 2]` follows numpy's convention for
negative indices: an index `k < 0` on an axis of extent `E` means `k + E`. The lowering states this per column, with
plain array operations: slice the column out, flatten it to `[N]`, compare it with a splat of zero (signed), add a splat
of the extent, select between the sum and the original, put the result back as a column `[N, 1]`, and concatenate the two
columns again into an `[N, 2]` array.

This file names that chain (`wrapCol`, `wrapPairs`), reads it at an entry (`wrapPairs_row`, `wrapPairs_col`: entry
`(n, c)` of the result is the scalar wrap `wrap` of entry `(n, c)` of the operand, with the extent of column `c`), and
shows that the scalar wrap leaves a non-negative index as it is (`wrap_of_nonneg`).
-/

namespace Cert.LibWrapPairs

open Idealize.ShloMosaic
open Idealize.ShloMosaic.ValueIdx

/-- numpy's wrap-around of one index `v` on an axis of extent `ext`, on 32-bit words: `v + ext` when `v` is negative
    (signed comparison with zero), `v` itself otherwise. -/
def wrap (ext v : BitVec 32) : BitVec 32 :=
  Scalar.select (IntOp.cmpi .slt v 0#32) (IntOp.addi v ext) v

/-- Column `col` of the pair array `a3 : [N, 2]`, wrapped around the extent `ext`, as a column `[N, 1]`: the slice
    `[0:N, col:col+1]`, reshaped to `[N]`; where it is below the zero splat (signed) the sum with the extent splat,
    elsewhere the value itself; broadcast back to `[N, 1]` along axis 0. -/
def wrapCol (N col : Nat) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank)) :
    IVec ⟨2, ![N, 1]⟩ 32 :=
  broadcastInDim ⟨2, ![N, 1]⟩ ![0] hb1
    (select
      (cmpi .slt
        (shapeCast ⟨1, ![N]⟩ (extractStridedSlice ⟨2, ![N, 1]⟩ ![0, col] a3 hs) hc)
        (broadcastInDim ⟨1, ![N]⟩ ![] hb (constantI ⟨0, ![]⟩ 32 0#32)))
      (addi
        (shapeCast ⟨1, ![N]⟩ (extractStridedSlice ⟨2, ![N, 1]⟩ ![0, col] a3 hs) hc)
        (broadcastInDim ⟨1, ![N]⟩ ![] hb (constantI ⟨0, ![]⟩ 32 ext)))
      (shapeCast ⟨1, ![N]⟩ (extractStridedSlice ⟨2, ![N, 1]⟩ ![0, col] a3 hs) hc))

/-- The pair array `a3 : [N, 2]` with column 0 wrapped around the extent `R` and column 1 around the extent `C`: the
    two wrapped columns concatenated along axis 1. -/
def wrapPairs (N : Nat) (R C : BitVec 32) (a3 : IVec ⟨2, ![N, 2]⟩ 32)
    (hs0 : (⟨2, ![N, 2]⟩ : Shape).Slices ![0, 0] ⟨2, ![N, 1]⟩)
    (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (hcat : Shape.Concatenates [(⟨2, ![N, 1]⟩ : Shape), ⟨2, ![N, 1]⟩] ⟨2, ![N, 2]⟩ 1) :
    IVec ⟨2, ![N, 2]⟩ 32 :=
  concatenate ⟨2, ![N, 2]⟩ 1
    [⟨⟨2, ![N, 1]⟩, wrapCol N 0 R a3 hs0 hc hb hb1⟩, ⟨⟨2, ![N, 1]⟩, wrapCol N 1 C a3 hs1 hc hb hb1⟩] hcat

/-- Row `n` of the wrapped column `col` is the scalar wrap of entry `(n, col)` of the pair array. -/
theorem wrapCol_apply (N col : Nat) (hcol : col < 2) (ext : BitVec 32) (a3 : IVec ⟨2, ![N, 2]⟩ 32)
    (hs : (⟨2, ![N, 2]⟩ : Shape).Slices ![0, col] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin (⟨1, ![N]⟩ : Shape).rank))
    (hb1 : (⟨1, ![N]⟩ : Shape).BroadcastsInDim ⟨2, ![N, 1]⟩ (![0] : Fin 1 → Fin (⟨2, ![N, 1]⟩ : Shape).rank))
    (n : Fin N) :
    wrapCol N col ext a3 hs hc hb hb1 (ix2 n (0 : Fin 1)) = wrap ext (a3 (ix2 n (⟨col, hcol⟩ : Fin 2))) := by
  -- the flattened slice at position n is entry (n, col) of the pair array
  have e1 : shapeCast ⟨1, ![N]⟩ (extractStridedSlice ⟨2, ![N, 1]⟩ ![0, col] a3 hs) hc (ix1 n)
      = a3 (ix2 n (⟨col, hcol⟩ : Fin 2)) := by
    rw [shapeCast_apply _ hc (ix1 n) (ix2 n (0 : Fin 1))
      (by rw [Shape.rowMajor_val_two, Shape.rowMajor_val_one]; show n.val * 1 + 0 = n.val; omega)]
    exact extractStridedSlice_apply _ a3 hs _ _ (fun a => match a with
      | ⟨0, _⟩ => by show n.val = 0 + n.val; omega
      | ⟨1, _⟩ => by show col = col + 0; omega)
  unfold wrapCol
  rw [broadcastInDim_apply _ hb1 _ (ix2 n (0 : Fin 1)) (ix1 n) (fun a => match a with
    | ⟨0, _⟩ => by
        have hn := n.isLt
        show n.val = if N = 1 then 0 else n.val
        split <;> omega)]
  rw [select_apply]
  show Scalar.select (IntOp.cmpi .slt (shapeCast ⟨1, ![N]⟩ (extractStridedSlice ⟨2, ![N, 1]⟩ ![0, col] a3 hs) hc (ix1 n)) 0#32)
      (IntOp.addi (shapeCast ⟨1, ![N]⟩ (extractStridedSlice ⟨2, ![N, 1]⟩ ![0, col] a3 hs) hc (ix1 n)) ext)
      (shapeCast ⟨1, ![N]⟩ (extractStridedSlice ⟨2, ![N, 1]⟩ ![0, col] a3 hs) hc (ix1 n)) = _
  rw [e1]
  rfl

section Pairs
variable (N : Nat) (R C : BitVec 32) (a3 : IVec ⟨2, ![N, 2]⟩ 32)
  (hs0 : (⟨2, ![N, 2]⟩ : Shape).Slices ![0, 0] ⟨2, ![N, 1]⟩)
  (hs1 : (⟨2, ![N, 2]⟩ : Shape).Slices ![0, 1] ⟨2, ![N, 1]⟩)
  (hc : (⟨2, ![N, 1]⟩ : Shape).ShapeCasts ⟨1, ![N]⟩)
  (hb : (⟨0, ![]⟩ : Shape).BroadcastsInDim ⟨1, ![N]⟩ (![] : Fin 0 → Fin (⟨1, ![N]⟩ : Shape).rank))
  (hb1 : (⟨1, ![N]⟩ : Shape).BroadcastsInDim ⟨2, ![N, 1]⟩ (![0] : Fin 1 → Fin (⟨2, ![N, 1]⟩ : Shape).rank))
  (hcat : Shape.Concatenates [(⟨2, ![N, 1]⟩ : Shape), ⟨2, ![N, 1]⟩] ⟨2, ![N, 2]⟩ 1)

/-- Entry `(n, 0)` of the wrapped pair array — the row index of pair `n` — is entry `(n, 0)` of the operand wrapped
    around the row extent `R`. -/
theorem wrapPairs_row (n : Fin N) :
    wrapPairs N R C a3 hs0 hs1 hc hb hb1 hcat (ix2 n (0 : Fin 2)) = wrap R (a3 (ix2 n (0 : Fin 2))) := by
  unfold wrapPairs
  rw [concatenate_pair_apply_left (t := ⟨2, ![N, 2]⟩) 1 _ _ hcat (ix2 n (0 : Fin 2)) rfl (ix2 n (0 : Fin 1))
    (fun b => match b with
      | ⟨0, _⟩ => rfl
      | ⟨1, _⟩ => rfl)]
  exact wrapCol_apply N 0 (by decide) R a3 hs0 hc hb hb1 n

/-- Entry `(n, 1)` of the wrapped pair array — the column index of pair `n` — is entry `(n, 1)` of the operand
    wrapped around the column extent `C`. -/
theorem wrapPairs_col (n : Fin N) :
    wrapPairs N R C a3 hs0 hs1 hc hb hb1 hcat (ix2 n (1 : Fin 2)) = wrap C (a3 (ix2 n (1 : Fin 2))) := by
  unfold wrapPairs
  rw [concatenate_pair_apply_right (t := ⟨2, ![N, 2]⟩) 1 _ _ hcat (ix2 n (1 : Fin 2)) rfl rfl (ix2 n (0 : Fin 1))
    (fun b => match b with
      | ⟨0, _⟩ => fun _ => rfl
      | ⟨1, _⟩ => fun hne => absurd rfl hne)
    rfl]
  exact wrapCol_apply N 1 (by decide) C a3 hs1 hc hb hb1 n

end Pairs

/-- A non-negative index is left as it is: the signed comparison `v < 0` is false, so the selection takes `v`. -/
theorem wrap_of_nonneg (ext v : BitVec 32) (h : 0 ≤ v.toInt) : wrap ext v = v := by
  have hs : BitVec.slt v 0#32 = false := by
    apply Bool.eq_false_iff.2
    intro ht
    have hlt := BitVec.slt_iff_toInt_lt.1 ht
    have h0 : (0#32 : BitVec 32).toInt = 0 := by decide
    omega
  show Scalar.select (BitVec.ofBool (BitVec.slt v 0#32)) (IntOp.addi v ext) v = v
  rw [hs]
  exact if_neg (by decide)

end Cert.LibWrapPairs
-- ==== Proof.Bridge.lean ====
/-
  The two forms of the "others" sum agree on finite logits.

  Row i of the kernel program's value is max(R(i) − exp(30 · x[i, t(i)]), 0) with R(i) the full row sum of
  exp(30 · x[i, ·]); row i of the reference's is (0 + Σ_j exp(30 · x[i, j])) − exp(30 · x)[i, t(i)].  The gather
  reads the entry at the clamped pair (row, column); the row component of pair i is i itself (the iota, wrapped,
  clamped: all idle on 0 … 2047), so the gathered entry is one of the terms of row i's sum, whatever the column
  component is.  A gather of a pointwise function of x is the pointwise function of the gather.  With every x finite,
  every term is a positive real, the sum less one of its terms is a non-negative real, and the clamp at zero is idle.
-/
import proofs.«138141_j21844203667631_2_alg».proof.Proof.Spec
import proofs.«138141_j21844203667631_2_alg».proof.Proof.Arith
import proofs.«138141_j21844203667631_2_alg».proof.Proof.LibWrapPairs
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace ArcLoss

open Idealize.ShloMosaic Idealize.ShloMosaic.ValueIdx

/-! ## The row component of pair i -/

/-- A number below 2048, as a 32-bit word, reads back as itself when read signed. -/
theorem toInt_ofNat_small (k : ℕ) (hk : k < 2048) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1]
  split <;> omega

/-- Entry (p, 0) of the pairs (i, t(i)) is the number p as a 32-bit word. -/
theorem rowPairs_row (lab : IVec SB 32) (p : Fin 2048) :
    rowPairs lab (ix2 p (0 : Fin 2)) = BitVec.ofNat 32 p.val := by
  unfold rowPairs pairs
  rw [concatenate_pair_apply_left (t := SB2) 1 _ _ cat2 (ix2 p (0 : Fin 2)) rfl (ix2 p (0 : Fin 1))
    (fun b => match b with
      | ⟨0, _⟩ => rfl
      | ⟨1, _⟩ => rfl)]
  rw [broadcastInDim_apply _ bcBB1 _ (ix2 p (0 : Fin 1)) (ix1 p) (fun a => match a with
    | ⟨0, _⟩ => rfl)]
  unfold wrap
  rw [select_apply]
  show Cert.LibWrapPairs.wrap 2048#32 (BitVec.ofNat 32 p.val) = _
  refine Cert.LibWrapPairs.wrap_of_nonneg _ _ ?_
  have hp := p.isLt
  rw [toInt_ofNat_small _ hp]
  omega

/-- The operand index the point gather reads for result row p: its row is p. -/
theorem operandIdx_row (idx : IVec SB2 32) (p : Fin 2048) (h0 : idx (ix2 p (0 : Fin 2)) = BitVec.ofNat 32 p.val) :
    (pointGather.operandIdx (ix1 p) idx (0 : Fin 2)).val = p.val := by
  show pointGather.start (ix1 p) idx 0 + pointGather.batchCoord (ix1 p) 0 + pointGather.offCoord (ix1 p) 0 = _
  rw [GatherDims.batchCoord_eq_zero _ _ _ List.not_mem_nil,
    GatherDims.offCoord_eq_zero _ _ _ (fun h => ((GatherDims.mem_sKept _ _).mp h).1 (List.mem_cons_self ..))]
  simp only [Nat.add_zero]
  unfold GatherDims.start
  rw [dif_pos (show (0 : Fin 2) ∈ pointGather.startIndexMap from List.mem_cons_self ..)]
  have hsi : pointGather.siIdx (ix1 p) ⟨List.idxOf (0 : Fin 2) pointGather.startIndexMap,
      List.idxOf_lt_length_iff.2 (List.mem_cons_self ..)⟩ = ix2 p (0 : Fin 2) := by
    funext b; refine Fin.ext ?_
    match b with
    | ⟨0, _⟩ => rfl
    | ⟨1, _⟩ => rfl
  rw [hsi, h0]
  have hp := p.isLt
  show min (BitVec.ofNat 32 p.val).toInt.toNat (2048 - 1) = p.val
  rw [toInt_ofNat_small _ hp]
  omega

/-! ## The two forms agree -/

/-- The reduction of columns, as the kernel's kind of shape fact. -/
theorem redXB' : SX.Reduces [1] SB := by decide

/-- With every logit finite and R the column of full row sums of exp(30 · x), the kernel program's clamped
    difference is the reference's difference, row by row. -/
theorem others_eq (x : FVec Ideal SX .f32) (lab : IVec SB 32) (hx : ∀ i, ∃ r : ℝ, x i = (r : EReal))
    (R : FVec Ideal SB1 .f32)
    (hR : ∀ p : Fin 2048, R (ix2 p (0 : Fin 1)) = ∑ j : Fin 50000, Ideal.exp (Ideal.ofBits .f32 0x41F00000#32 * x (ix2 p j))) :
    othersKer R x lab = othersRef x lab := by
  funext i
  obtain ⟨p, rfl⟩ : ∃ p : Fin 2048, i = ix1 p := ⟨i 0, eq_ix1 i⟩
  have hrow := operandIdx_row (rowPairs lab) p (rowPairs_row lab p)
  obtain ⟨q, hq⟩ : ∃ q : Fin 50000, pointGather.operandIdx (ix1 p) (rowPairs lab) = ix2 p q :=
    ⟨⟨(pointGather.operandIdx (ix1 p) (rowPairs lab) 1).val, idx2_lt1 _⟩, funext fun a => Fin.ext (by
      match a with
      | ⟨0, _⟩ => exact hrow
      | ⟨1, _⟩ => rfl)⟩
  choose f hf using hx
  have hterm : ∀ j : Fin 50000, Ideal.exp (Ideal.ofBits .f32 0x41F00000#32 * x (ix2 p j))
      = ((Real.exp (30 * f (ix2 p j)) : ℝ) : EReal) := fun j => by rw [hf]; exact Arith.exp_thirty_mul _
  have hL : othersKer R x lab (ix1 p)
      = max ((∑ j : Fin 50000, ((Real.exp (30 * f (ix2 p j)) : ℝ) : EReal)) - ((Real.exp (30 * f (ix2 p q)) : ℝ) : EReal)) 0 := by
    unfold othersKer
    show max (shapeCast SB R scB1B (ix1 p)
        - Ideal.exp (Ideal.ofBits .f32 0x41F00000#32 * x (pointGather.operandIdx (ix1 p) (rowPairs lab))))
      (Ideal.ofBits .f32 0x00000000#32) = _
    rw [hq, hterm q, Ideal.ofBits_zero_f32, shapeCast_apply R scB1B (ix1 p) (ix2 p (0 : Fin 1))
      (by rw [Shape.rowMajor_val_two, Shape.rowMajor_val_one]; show p.val * 1 + 0 = p.val; omega), hR p]
    simp only [hterm]
  have hRf : othersRef x lab (ix1 p)
      = (0 + ∑ j : Fin 50000, ((Real.exp (30 * f (ix2 p j)) : ℝ) : EReal)) - ((Real.exp (30 * f (ix2 p q)) : ℝ) : EReal) := by
    unfold othersRef
    show Ideal.hostReduceAdd redXB (expScaled x) (Ideal.ofBits .f32 0x00000000#32) (ix1 p)
      - expScaled x (pointGather.operandIdx (ix1 p) (rowPairs lab)) = _
    rw [Ideal.hostReduceAdd_single redXB redXB', Ideal.ofBits_zero_f32, hq]
    show (0 + ∑ k : Fin 50000, Ideal.exp (Ideal.ofBits .f32 0x41F00000#32 * x (redXB'.lift (ix1 p) k)))
      - Ideal.exp (Ideal.ofBits .f32 0x41F00000#32 * x (ix2 p q)) = _
    rw [hterm q]
    refine congrArg (fun s => (0 + s) - ((Real.exp (30 * f (ix2 p q)) : ℝ) : EReal)) (Finset.sum_congr rfl fun k _ => ?_)
    rw [← hterm k]
    refine congrArg (fun j => Ideal.exp (Ideal.ofBits .f32 0x41F00000#32 * x j)) (funext fun a => Fin.ext ?_)
    match a with
    | ⟨0, _⟩ => rfl
    | ⟨1, _⟩ => rfl
  rw [hL, hRf]
  exact Arith.max_sum_sub_term (fun j => Real.exp (30 * f (ix2 p j))) (fun j => Real.exp_pos _) q

end ArcLoss

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  The precondition read at an entry: every logit is a real number.

  The precondition is the conjunction of two "all entries finite" tests (of the logits and of the coefficients)
  coming out true on every device; its first conjunct, read at an entry, says that logit is real.
-/
import proofs.«138141_j21844203667631_2_alg».proof.Defs
import proofs.«138141_j21844203667631_2_alg».proof.Proof.Gen.KernelIdeal
import proofs.«138141_j21844203667631_2_alg».proof.Proof.Gen.Pre_finite_inputs
import proofs.«138141_j21844203667631_2_alg».proof.Proof.LibFiniteEntry
import Idealize.ShloMosaic.Lib.Affine

noncomputable section

namespace Cert.KernelIdeal.Finite

open Cert.KernelIdeal Idealize.ShloMosaic Idealize.ShloMosaic.ValueIdx Idealize.SL.Sem

/-- Under the precondition every entry of the logits, on every device, is a real number. -/
theorem logits_real (m : (ℓ : Loc nD τ sig) → Buf (Elt Ideal) ℓ) (hpre : Cert.Pre_KernelIdeal m) (c : Dev nD)
    (i : S2048x50000.Idx) : ∃ r : ℝ, m ((c.tc : Thread nD τ).loc main_arg0) i = (r : EReal) := by
  have h := congrFun (hpre c) ix0
  dsimp only [Cert.Pre_finite_inputs.fn] at h
  have h1 := (IntOp.andi_eq_one.mp h).1
  exact Cert.LibFiniteEntry.real_of_all _ _ _ _ _ h1 i

end Cert.KernelIdeal.Finite

end
-- ==== Proof.lean ====
/-
  The five claims for the row-sum kernel program against its jnp reference.

  Both programs compute the same loss from the logits x, the labels and seven polynomial coefficients: for row i,
  with t(i) its label, N(i) = 30 · p(clip(x[t(i), t(i)])) and o(i) = Σ_j exp(30 · x[i, j]) − exp(30 · x[i, t(i)]);
  the loss is −(Σ_i (N(i) − log(exp N(i) + o(i)))) / 2048.  They differ in o only.  The reference exponentiates the whole
  matrix, sums each row and subtracts the gathered entry.  The kernel program has its Pallas kernel sum each row of
  exp(30 · x) in fourteen stretches of columns (at exact arithmetic the full row sum, by associativity), gathers the
  entry of x and exponentiates it, subtracts, and clamps the difference at zero from below.  The gathered entry lies in
  row i itself, so on finite logits the difference is a sum of positive reals less one of its own terms: not negative,
  and the clamp is idle.  Finiteness of the logits is the precondition; nothing else of it is used.

  The frames of the two kernel programs are the generated frame runs; the reference has no kernel and its frame is its
  run with the result dropped.  The idealization rewrote nothing, so there is nothing to preserve.
-/
import proofs.«138141_j21844203667631_2_alg».proof.Defs
import proofs.«138141_j21844203667631_2_alg».proof.Proof.Gen.Kernel
import proofs.«138141_j21844203667631_2_alg».proof.Proof.Gen.Kernel.Skeleton
import proofs.«138141_j21844203667631_2_alg».proof.Proof.Gen.Kernel.Launch
import proofs.«138141_j21844203667631_2_alg».proof.Proof.Gen.Kernel.Points
import proofs.«138141_j21844203667631_2_alg».proof.Proof.Gen.Kernel.Frame
import proofs.«138141_j21844203667631_2_alg».proof.Proof.Gen.KernelIdeal
import proofs.«138141_j21844203667631_2_alg».proof.Proof.Gen.KernelIdeal.Skeleton
import proofs.«138141_j21844203667631_2_alg».proof.Proof.Gen.KernelIdeal.Launch
import proofs.«138141_j21844203667631_2_alg».proof.Proof.Gen.KernelIdeal.Points
import proofs.«138141_j21844203667631_2_alg».proof.Proof.Gen.KernelIdeal.Frame
import proofs.«138141_j21844203667631_2_alg».proof.Proof.Gen.ReferenceIdeal
import proofs.«138141_j21844203667631_2_alg».proof.Proof.Gen.Pre_finite_inputs
import proofs.«138141_j21844203667631_2_alg».proof.Proof.RowArray
import proofs.«138141_j21844203667631_2_alg».proof.Proof.KerHost
import proofs.«138141_j21844203667631_2_alg».proof.Proof.RefRun
import proofs.«138141_j21844203667631_2_alg».proof.Proof.Bridge
import proofs.«138141_j21844203667631_2_alg».proof.Proof.Finite
import Idealize.ShloMosaic.Adequacy
import Idealize.ShloMosaic.Init

noncomputable section

open Idealize.ShloMosaic Idealize.ShloMosaic.TcCoe Idealize.SL.Sem Idealize.ShloMosaic.ValueIdx

/-! ## The kernel program's run, read at exact arithmetic -/

namespace Cert.KernelIdeal.Result

open Cert.KernelIdeal Cert.KernelIdeal.Gen
open Idealize.ShloMosaic.Pipeline (Dat)

variable (m : (ℓ : Loc nD τ sig) → Buf (Elt Ideal) ℓ) (ρ : Dev nD → PrngReg)

set_option maxRecDepth 400000 in
/-- On finite logits the kernel program's result is the reference's function of the three arguments: the kernel's
    array is the column of row sums, and the clamped difference is the plain one. -/
theorem out_eq_ref (hpre : Cert.Pre_KernelIdeal m) (c : Dev nD) :
    Pipeline.afterTail₀ cfgs (dats m) 0 (V0 m) [hostOps1] c main_v48
      = ArcLoss.refOut (F := Ideal) (m ((c : Thread nD τ).loc main_arg0)) (m ((c : Thread nD τ).loc main_arg1))
          (m ((c : Thread nD τ).loc main_arg2)) := by
  rw [Cert.KernelIdeal.KerHost.kernel_out m c, Cert.KernelIdeal.RowArray.final m c, V_main_arg0 m c]
  unfold ArcLoss.kerOut ArcLoss.refOut
  rw [ArcLoss.others_eq (m ((c : Thread nD τ).loc main_arg0)) (m ((c : Thread nD τ).loc main_arg1))
    (Cert.KernelIdeal.Finite.logits_real m hpre c) _ (fun p => rfl)]

/-- Every weakly fair execution of the kernel program ends with its result at that function and its arguments as
    launched. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v48)
          = ArcLoss.refOut (F := Ideal) (m ((c : Thread nD τ).loc main_arg0)) (m ((c : Thread nD τ).loc main_arg1))
              (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v48 (Pipeline.mem_restRefs_of main_v48 (by decide) (by decide))).trans (out_eq_ref m hpre c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

/-! ## The claims -/

namespace Cert.Proof

open Cert.ReferenceIdeal.RefRun

theorem frame_p : Cert.frame_Kernel := fun m ρ _ => Cert.Kernel.Gen.frame m ρ

theorem frame_pi : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c =>
    ⟨(h c Cert.ReferenceIdeal.main_arg0).trans (arg0_eq _), (h c Cert.ReferenceIdeal.main_arg1).trans (arg1_eq _),
      (h c Cert.ReferenceIdeal.main_arg2).trans (arg2_eq _)⟩)
    (run_all (F := Ideal) m ρ)

theorem preserves : Cert.preserves_Kernel_KernelIdeal := trivial

set_option maxHeartbeats 2000000 in
/-- Both programs end at the reference's function of arguments that agree. -/
theorem algebraic : Cert.algebraic_KernelIdeal_ReferenceIdeal := by
  intro m ρ m' ρ' hpre hagree
  refine ⟨fun c => ArcLoss.refOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ hpre, ?_⟩
  refine (θ_run Cert.ReferenceIdeal.defs _ _).mono (fun _ h c =>
    ⟨?_, (h c Cert.ReferenceIdeal.main_arg0).trans (arg0_eq _), (h c Cert.ReferenceIdeal.main_arg1).trans (arg1_eq _),
      (h c Cert.ReferenceIdeal.main_arg2).trans (arg2_eq _)⟩)
    (run_all (F := Ideal) m' ρ')
  refine (h c Cert.ReferenceIdeal.main_v45).trans ((out_eq _).trans ?_)
  show ArcLoss.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
